-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S100000 : Shape := ⟨1, ![100000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_arg13 : FVec F S10 .f32) (main_v48 : IVec S_ 1) (main_v49 : FVec F S128x10 .f32) (main_v50 : FVec F S128x10 .f32) : IVec S_ 1 :=
  let main_v51 : IVec S128x10 1 := cmpf .olt main_v49 main_v50
  let main_c_19 : IVec S_ 1 := constantI S_ 1 1#1
  let main_v52 : IVec S_ 1 := (fun x v => Host.reduce IntOp.andi x v reducesTo_S128x10_S_d0_1 h_S_) main_v51 main_c_19
  let main_v53 : IVec S_ 1 := andi main_v48 main_v52
  let main_v54 : FVec F S10 .f32 := Host.absf main_arg13
  let main_cst_20 : FVec F S_ .f32 := constant S_ .f32 0x7F800000#32
  let main_v55 : FVec F S10 .f32 := broadcastInDim S10 ![] bcast_S_S10 main_cst_20
  let main_v56 : IVec S10 1 := cmpf .olt main_v54 main_v55
  let main_c_21 : IVec S_ 1 := constantI S_ 1 1#1
  let main_v57 : IVec S_ 1 := (fun x v => Host.reduce IntOp.andi x v reducesTo_S10_S_d0 h_S_) main_v56 main_c_21
  let main_v58 : IVec S_ 1 := andi main_v53 main_v57
  main_v58

def fn_part2 {F : FTy → Type} [FloatOps F] (main_arg9 : FVec F S128x128 .f32) (main_arg10 : FVec F S128 .f32) (main_arg11 : FVec F S128x128 .f32) (main_arg12 : FVec F S128x10 .f32) (main_arg13 : FVec F S10 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128x10 .f32 := Host.absf main_arg12
  let main_cst_18 : FVec F S_ .f32 := constant S_ .f32 0x7F800000#32
  let main_v50 : FVec F S128x10 .f32 := broadcastInDim S128x10 ![] bcast_S_S128x10 main_cst_18
  fn_part3 (F := F) main_arg13 main_v48 main_v49 main_v50

def fn_part1 {F : FTy → Type} [FloatOps F] (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S128x10 .f32) (main_arg13 : FVec F S10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S100000x128 .f32) (main_arg1 : IVec S2x640000 32) (main_arg2 : IVec S100000 32) (main_arg3 : FVec F S128x128 .f32) (main_arg4 : FVec F S128 .f32) (main_arg5 : FVec F S128x128 .f32) (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S128x10 .f32) (main_arg13 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_v13 main_v16
-- ==== Kernel.lean ====
abbrev S100000x128 : Shape := ⟨2, ![100000, 128]⟩
abbrev S2x640000 : Shape := ⟨2, ![2, 640000]⟩
abbrev S100000 : Shape := ⟨1, ![100000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S100000x1 : Shape := ⟨2, ![100000, 1]⟩
abbrev S5000x128 : Shape := ⟨2, ![5000, 128]⟩
abbrev S1x128 : Shape := ⟨2, ![1, 128]⟩
abbrev S64x128 : Shape := ⟨2, ![64, 128]⟩
abbrev S64 : Shape := ⟨1, ![64]⟩
abbrev S64x1 : Shape := ⟨2, ![64, 1]⟩
abbrev S64x10 : Shape := ⟨2, ![64, 10]⟩
abbrev S1x10 : Shape := ⟨2, ![1, 10]⟩

abbrev nBuf : Space → Nat
  | .hbm => 98
  | .vmem => 31
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128x10, .f32⟩
  | .hbm, ⟨13, _⟩ => ⟨S10, .f32⟩
  | .hbm, ⟨14, _⟩ => ⟨S1x640000, .i32⟩
  | .hbm, ⟨15, _⟩ => ⟨S640000, .i32⟩
  | .hbm, ⟨16, _⟩ => ⟨S1x640000, .i32⟩
  | .hbm, ⟨17, _⟩ => ⟨S640000, .i32⟩
  | .hbm, ⟨18, _⟩ => ⟨S_, .f32⟩
  | .hbm, ⟨19, _⟩ => ⟨S640000, .f32⟩
  | .hbm, ⟨20, _⟩ => ⟨S_, .f32⟩
  | .hbm, ⟨21, _⟩ => ⟨S100000, .f32⟩
  | .hbm, ⟨22, _⟩ => ⟨S640000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S640000, .i32⟩
  | .hbm, ⟨32, _⟩ => ⟨S640000, .i1⟩
  | .hbm, ⟨33, _⟩ => ⟨S_, .i32⟩
  | .hbm, ⟨34, _⟩ => ⟨S640000, .i32⟩
  | .hbm, ⟨35, _⟩ => ⟨S640000, .i32⟩
  | .hbm, ⟨36, _⟩ => ⟨S640000, .i32⟩
  | .hbm, ⟨37, _⟩ => ⟨S640000x1, .i32⟩
  | .hbm, ⟨38, _⟩ => ⟨S640000x128, .f32⟩
  | .hbm, ⟨39, _⟩ => ⟨S_, .f32⟩
  | .hbm, ⟨40, _⟩ => ⟨S100000x128, .f32⟩
  | .hbm, ⟨41, _⟩ => ⟨S640000x1, .i32⟩
  | .hbm, ⟨42, _⟩ => ⟨S100000x128, .f32⟩
  | .hbm, ⟨43, _⟩ => ⟨S100000x1, .f32⟩
  | .hbm, ⟨44, _⟩ => ⟨S100000x128, .f32⟩
  | .hbm, ⟨45, _⟩ => ⟨S100000x128, .f32⟩
  | .hbm, ⟨46, _⟩ => ⟨S100000x128, .f32⟩
  | .hbm, ⟨47, _⟩ => ⟨S_, .i32⟩
  | .hbm, ⟨48, _⟩ => ⟨S640000, .i32⟩
  | .hbm, ⟨49, _⟩ => ⟨S640000, .i1⟩
  | .hbm, ⟨50, _⟩ => ⟨S_, .i32⟩
  | .hbm, ⟨51, _⟩ => ⟨S640000, .i32⟩
  | .hbm, ⟨52, _⟩ => ⟨S640000, .i32⟩
  | .hbm, ⟨53, _⟩ => ⟨S640000, .i32⟩
  | .hbm, ⟨54, _⟩ => ⟨S640000x1, .i32⟩
  | .hbm, ⟨55, _⟩ => ⟨S640000x128, .f32⟩
  | .hbm, ⟨56, _⟩ => ⟨S_, .f32⟩
  | .hbm, ⟨57, _⟩ => ⟨S100000x128, .f32⟩
  | .hbm, ⟨58, _⟩ => ⟨S640000x1, .i32⟩
  | .hbm, ⟨59, _⟩ => ⟨S100000x128, .f32⟩
  | .hbm, ⟨60, _⟩ => ⟨S100000x1, .f32⟩
  | .hbm, ⟨61, _⟩ => ⟨S100000x128, .f32⟩
  | .hbm, ⟨62, _⟩ => ⟨S100000x128, .f32⟩
  | .hbm, ⟨63, _⟩ => ⟨S100000x128, .f32⟩
  | .hbm, ⟨64, _⟩ => ⟨S_, .i32⟩
  | .hbm, ⟨65, _⟩ => ⟨S640000, .i32⟩
  | .hbm, ⟨66, _⟩ => ⟨S640000, .i1⟩
  | .hbm, ⟨67, _⟩ => ⟨S_, .i32⟩
  | .hbm, ⟨68, _⟩ => ⟨S640000, .i32⟩
  | .hbm, ⟨69, _⟩ => ⟨S640000, .i32⟩
  | .hbm, ⟨70, _⟩ => ⟨S640000, .i32⟩
  | .hbm, ⟨71, _⟩ => ⟨S640000x1, .i32⟩
  | .hbm, ⟨72, _⟩ => ⟨S640000x128, .f32⟩
  | .hbm, ⟨73, _⟩ => ⟨S_, .f32⟩
  | .hbm, ⟨74, _⟩ => ⟨S100000x128, .f32⟩
  | .hbm, ⟨75, _⟩ => ⟨S640000x1, .i32⟩
  | .hbm, ⟨76, _⟩ => ⟨S100000x128, .f32⟩
  | .hbm, ⟨77, _⟩ => ⟨S100000x1, .f32⟩
  | .hbm, ⟨78, _⟩ => ⟨S100000x128, .f32⟩
  | .hbm, ⟨79, _⟩ => ⟨S100000x128, .f32⟩
  | .hbm, ⟨80, _⟩ => ⟨S100000x128, .f32⟩
  | .hbm, ⟨81, _⟩ => ⟨S_, .f32⟩
  | .hbm, ⟨82, _⟩ => ⟨S64x128, .f32⟩
  | .hbm, ⟨83, _⟩ => ⟨S100000x1, .i32⟩
  | .hbm, ⟨84, _⟩ => ⟨S64x128, .f32⟩
  | .hbm, ⟨85, _⟩ => ⟨S_, .f32⟩
  | .hbm, ⟨86, _⟩ => ⟨S100000, .f32⟩
  | .hbm, ⟨87, _⟩ => ⟨S_, .f32⟩
  | .hbm, ⟨88, _⟩ => ⟨S64, .f32⟩
  | .hbm, ⟨89, _⟩ => ⟨S100000x1, .i32⟩
  | .hbm, ⟨90, _⟩ => ⟨S64, .f32⟩
  | .hbm, ⟨91, _⟩ => ⟨S_, .f32⟩
  | .hbm, ⟨92, _⟩ => ⟨S64, .f32⟩
  | .hbm, ⟨93, _⟩ => ⟨S64, .f32⟩
  | .hbm, ⟨94, _⟩ => ⟨S64x1, .f32⟩
  | .hbm, ⟨95, _⟩ => ⟨S64x128, .f32⟩
  | .hbm, ⟨96, _⟩ => ⟨S64x128, .f32⟩
  | .hbm, ⟨97, _⟩ => ⟨S64x10, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S128, .f32⟩
  | .local _ .vmem, ⟨24, _⟩ => ⟨S128x128, .f32⟩
  | .local _ .vmem, ⟨25, _⟩ => ⟨S5000x128, .f32⟩
  | .local _ .vmem, ⟨26, _⟩ => ⟨S5000x128, .f32⟩
  | .local _ .vmem, ⟨27, _⟩ => ⟨S64x128, .f32⟩
  | .local _ .vmem, ⟨28, _⟩ => ⟨S128x10, .f32⟩
  | .local _ .vmem, ⟨29, _⟩ => ⟨S10, .f32⟩
  | .local _ .vmem, ⟨30, _⟩ => ⟨S64x10, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_cst_2 : Ref sig .tc := ⟨.hbm, 27, rfl⟩
abbrev main_v10 : Ref sig .tc := ⟨.hbm, 28, rfl⟩
abbrev main_v11 : Ref sig .tc := ⟨.hbm, 29, rfl⟩
abbrev main_c : Ref sig .tc := ⟨.hbm, 30, rfl⟩
abbrev main_v12 : Ref sig .tc := ⟨.hbm, 31, rfl⟩
abbrev main_v13 : Ref sig .tc := ⟨.hbm, 32, rfl⟩
abbrev main_c_3 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_4 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_c_5 : Ref sig .tc := ⟨.hbm, 47, rfl⟩
abbrev main_v26 : Ref sig .tc := ⟨.hbm, 48, rfl⟩
abbrev main_v27 : Ref sig .tc := ⟨.hbm, 49, rfl⟩
abbrev main_c_6 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_7 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_c_8 : Ref sig .tc := ⟨.hbm, 64, rfl⟩
abbrev main_v40 : Ref sig .tc := ⟨.hbm, 65, rfl⟩
abbrev main_v41 : Ref sig .tc := ⟨.hbm, 66, rfl⟩
abbrev main_c_9 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_10 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_11 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_12 : Ref sig .tc := ⟨.hbm, 85, rfl⟩
abbrev main_v57 : Ref sig .tc := ⟨.hbm, 86, rfl⟩
abbrev main_cst_13 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_14 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg3_0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem1_0 : DmaSem sig := 28
abbrev cc3_sem2_0 : DmaSem sig := 29
abbrev cc3_sem3_0 : DmaSem sig := 30

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S64x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S128x10 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S10 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x10 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S100000 : S_.BroadcastsInDim S100000 (![] : Fin 0 → Fin S100000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  bcast_S_S64x128 : S_.BroadcastsInDim S64x128 (![] : Fin 0 → Fin S64x128.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128x10_S128x10_0_0 : ∀ a, (![0, 0] : Fin 2 → Nat) a + S128x10.size a ≤ S128x10.size a
  h_S128x10 : 0 < S128x10.numel
  inb_S10_S10_0 : ∀ a, (![0] : Fin 1 → Nat) a + S10.size a ≤ S10.size a
  h_S10 : 0 < S10.numel
  shapeCasts_S10_S1x10 : S10.ShapeCasts S1x10
  broadcasts_S1x10_S64x10 : S1x10.Broadcasts S64x10
  inb_S64x10_S64x10_0_0 : ∀ a, (![0, 0] : Fin 2 → Nat) a + S64x10.size a ≤ S64x10.size a
  h_S64x10 : 0 < S64x10.numel
  scatter_S100000_S640000x1_S640000_n_0_0_1_wf : ScatterDims.WF S100000 S640000x1 S640000 [] [0] [0] 1
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S5000x128_S128x128_S5000x128_1_0_0_1_n_n_wf : DotDims.WF S5000x128 S128x128 S5000x128 [1] [0] [0] [1] [] []
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1
  dot_S64x128_S128x10_S64x10_1_0_0_1_n_n_wf : DotDims.WF S64x128 S128x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S64x128.size a ≤ S64x128.size a
  hwx3_0 : ∀ i : grid3.Coords, EltTy.bits .f32 = 32 ∨ (Rect.block (s := S64x128) S64x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x10.size a ≤ S128x10.size a
  hwx3_1 : ∀ i : grid3.Coords, EltTy.bits .f32 = 32 ∨ (Rect.block (s := S128x10) S128x10.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S10.size a ≤ S10.size a
  hwx3_2 : ∀ i : grid3.Coords, EltTy.bits .f32 = 32 ∨ (Rect.block (s := S10) S10.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x10.size a ≤ S64x10.size a
  hwx3_3 : ∀ i : grid3.Coords, EltTy.bits .f32 = 32 ∨ (Rect.block (s := S64x10) S64x10.size (cc3_transform_3 i) (hinb3_3 i)).WholeWords (EltTy.packing .f32)

variable [Facts₀]

def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v52) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v53) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v65) S64x128.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg12) S128x10.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg13) S10.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v66) S64x10.size cc3_transform_3 reads3_3 true true 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S100000 : Shape := ⟨1, ![100000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S100000x1 : Shape := ⟨2, ![100000, 1]⟩
abbrev S1x128 : Shape := ⟨2, ![1, 128]⟩
abbrev S64x128 : Shape := ⟨2, ![64, 128]⟩
abbrev S64 : Shape := ⟨1, ![64]⟩
abbrev S64x1 : Shape := ⟨2, ![64, 1]⟩
abbrev S64x10 : Shape := ⟨2, ![64, 10]⟩
abbrev S1x10 : Shape := ⟨2, ![1, 10]⟩

abbrev nBuf : Space → Nat
  | .hbm => 137
  | .vmem => 0
  | .smem => 0
  | _ => 0

abbrev hbmTy0_0 (i : Nat) : BufTy := match i % 128 with
  | 0 => ⟨S100000x128, .f32⟩
  | 1 => ⟨S2x640000, .i32⟩
  | 2 => ⟨S100000, .i32⟩
  | 3 => ⟨S128x128, .f32⟩
  | 4 => ⟨S128, .f32⟩
  | 5 => ⟨S128x128, .f32⟩
  | 6 => ⟨S128x128, .f32⟩
  | 7 => ⟨S128, .f32⟩
  | 8 => ⟨S128x128, .f32⟩
  | 9 => ⟨S128x128, .f32⟩
  | 10 => ⟨S128, .f32⟩
  | 11 => ⟨S128x128, .f32⟩
  | 12 => ⟨S128x10, .f32⟩
  | 13 => ⟨S10, .f32⟩
  | 14 => ⟨S1x640000, .i32⟩
  | 15 => ⟨S640000, .i32⟩
  | 16 => ⟨S1x640000, .i32⟩
  | 17 => ⟨S640000, .i32⟩
  | 18 => ⟨S_, .i32⟩
  | 19 => ⟨S640000, .i32⟩
  | 20 => ⟨S640000, .i1⟩
  | 21 => ⟨S_, .i32⟩
  | 22 => ⟨S640000, .i32⟩
  | 23 => ⟨S640000, .i32⟩
  | 24 => ⟨S640000, .i32⟩
  | 25 => ⟨S640000x1, .i32⟩
  | 26 => ⟨S640000x128, .f32⟩
  | 27 => ⟨S_, .f32⟩
  | 28 => ⟨S100000x128, .f32⟩
  | 29 => ⟨S640000x1, .i32⟩
  | 30 => ⟨S100000x128, .f32⟩
  | 31 => ⟨S_, .f32⟩
  | 32 => ⟨S640000, .f32⟩
  | 33 => ⟨S_, .f32⟩
  | 34 => ⟨S100000, .f32⟩
  | 35 => ⟨S640000x1, .i32⟩
  | 36 => ⟨S100000, .f32⟩
  | 37 => ⟨S_, .f32⟩
  | 38 => ⟨S100000, .f32⟩
  | 39 => ⟨S100000, .f32⟩
  | 40 => ⟨S100000x1, .f32⟩
  | 41 => ⟨S100000x128, .f32⟩
  | 42 => ⟨S100000x128, .f32⟩
  | 43 => ⟨S100000x128, .f32⟩
  | 44 => ⟨S1x128, .f32⟩
  | 45 => ⟨S100000x128, .f32⟩
  | 46 => ⟨S100000x128, .f32⟩
  | 47 => ⟨S100000x128, .f32⟩
  | 48 => ⟨S100000x128, .f32⟩
  | 49 => ⟨S_, .f32⟩
  | 50 => ⟨S100000x128, .f32⟩
  | 51 => ⟨S100000x128, .f32⟩
  | 52 => ⟨S_, .i32⟩
  | 53 => ⟨S640000, .i32⟩
  | 54 => ⟨S640000, .i1⟩
  | 55 => ⟨S_, .i32⟩
  | 56 => ⟨S640000, .i32⟩
  | 57 => ⟨S640000, .i32⟩
  | 58 => ⟨S640000, .i32⟩
  | 59 => ⟨S640000x1, .i32⟩
  | 60 => ⟨S640000x128, .f32⟩
  | 61 => ⟨S_, .f32⟩
  | 62 => ⟨S100000x128, .f32⟩
  | 63 => ⟨S640000x1, .i32⟩
  | 64 => ⟨S100000x128, .f32⟩
  | 65 => ⟨S_, .f32⟩
  | 66 => ⟨S640000, .f32⟩
  | 67 => ⟨S_, .f32⟩
  | 68 => ⟨S100000, .f32⟩
  | 69 => ⟨S640000x1, .i32⟩
  | 70 => ⟨S100000, .f32⟩
  | 71 => ⟨S_, .f32⟩
  | 72 => ⟨S100000, .f32⟩
  | 73 => ⟨S100000, .f32⟩
  | 74 => ⟨S100000x1, .f32⟩
  | 75 => ⟨S100000x128, .f32⟩
  | 76 => ⟨S100000x128, .f32⟩
  | 77 => ⟨S100000x128, .f32⟩
  | 78 => ⟨S1x128, .f32⟩
  | 79 => ⟨S100000x128, .f32⟩
  | 80 => ⟨S100000x128, .f32⟩
  | 81 => ⟨S100000x128, .f32⟩
  | 82 => ⟨S100000x128, .f32⟩
  | 83 => ⟨S_, .f32⟩
  | 84 => ⟨S100000x128, .f32⟩
  | 85 => ⟨S100000x128, .f32⟩
  | 86 => ⟨S_, .i32⟩
  | 87 => ⟨S640000, .i32⟩
  | 88 => ⟨S640000, .i1⟩
  | 89 => ⟨S_, .i32⟩
  | 90 => ⟨S640000, .i32⟩
  | 91 => ⟨S640000, .i32⟩
  | 92 => ⟨S640000, .i32⟩
  | 93 => ⟨S640000x1, .i32⟩
  | 94 => ⟨S640000x128, .f32⟩
  | 95 => ⟨S_, .f32⟩
  | 96 => ⟨S100000x128, .f32⟩
  | 97 => ⟨S640000x1, .i32⟩
  | 98 => ⟨S100000x128, .f32⟩
  | 99 => ⟨S_, .f32⟩
  | 100 => ⟨S640000, .f32⟩
  | 101 => ⟨S_, .f32⟩
  | 102 => ⟨S100000, .f32⟩
  | 103 => ⟨S640000x1, .i32⟩
  | 104 => ⟨S100000, .f32⟩
  | 105 => ⟨S_, .f32⟩
  | 106 => ⟨S100000, .f32⟩
  | 107 => ⟨S100000, .f32⟩
  | 108 => ⟨S100000x1, .f32⟩
  | 109 => ⟨S100000x128, .f32⟩
  | 110 => ⟨S100000x128, .f32⟩
  | 111 => ⟨S100000x128, .f32⟩
  | 112 => ⟨S1x128, .f32⟩
  | 113 => ⟨S100000x128, .f32⟩
  | 114 => ⟨S100000x128, .f32⟩
  | 115 => ⟨S100000x128, .f32⟩
  | 116 => ⟨S100000x128, .f32⟩
  | 117 => ⟨S_, .f32⟩
  | 118 => ⟨S64x128, .f32⟩
  | 119 => ⟨S100000x1, .i32⟩
  | 120 => ⟨S64x128, .f32⟩
  | 121 => ⟨S_, .f32⟩
  | 122 => ⟨S100000, .f32⟩
  | 123 => ⟨S_, .f32⟩
  | 124 => ⟨S64, .f32⟩
  | 125 => ⟨S100000x1, .i32⟩
  | 126 => ⟨S64, .f32⟩
  | 127 => ⟨S_, .f32⟩
  | _ => ⟨S100000x128, .f32⟩

abbrev hbmTy0_1 (i : Nat) : BufTy := match i % 128 with
  | 0 => ⟨S64, .f32⟩
  | 1 => ⟨S64, .f32⟩
  | 2 => ⟨S64x1, .f32⟩
  | 3 => ⟨S64x128, .f32⟩
  | 4 => ⟨S64x128, .f32⟩
  | 5 => ⟨S64x10, .f32⟩
  | 6 => ⟨S1x10, .f32⟩
  | 7 => ⟨S64x10, .f32⟩
  | 8 => ⟨S64x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_cst_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_call0_cst : Ref sig .tc := ⟨.hbm, 49, rfl⟩
abbrev main_call0_v0 : Ref sig .tc := ⟨.hbm, 50, rfl⟩
abbrev main_v29 : Ref sig .tc := ⟨.hbm, 51, rfl⟩
abbrev main_c_4 : Ref sig .tc := ⟨.hbm, 52, rfl⟩
abbrev main_v30 : Ref sig .tc := ⟨.hbm, 53, rfl⟩
abbrev main_v31 : Ref sig .tc := ⟨.hbm, 54, rfl⟩
abbrev main_c_5 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_6 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_7 : Ref sig .tc := ⟨.hbm, 65, rfl⟩
abbrev main_v40 : Ref sig .tc := ⟨.hbm, 66, rfl⟩
abbrev main_cst_8 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_9 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_call1_cst : Ref sig .tc := ⟨.hbm, 83, rfl⟩
abbrev main_call1_v0 : Ref sig .tc := ⟨.hbm, 84, rfl⟩
abbrev main_v55 : Ref sig .tc := ⟨.hbm, 85, rfl⟩
abbrev main_c_10 : Ref sig .tc := ⟨.hbm, 86, rfl⟩
abbrev main_v56 : Ref sig .tc := ⟨.hbm, 87, rfl⟩
abbrev main_v57 : Ref sig .tc := ⟨.hbm, 88, rfl⟩
abbrev main_c_11 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_12 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_13 : Ref sig .tc := ⟨.hbm, 99, rfl⟩
abbrev main_v66 : Ref sig .tc := ⟨.hbm, 100, rfl⟩
abbrev main_cst_14 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_cst_15 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_cst_16 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_cst_17 : Ref sig .tc := ⟨.hbm, 121, rfl⟩
abbrev main_v84 : Ref sig .tc := ⟨.hbm, 122, rfl⟩
abbrev main_cst_18 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_cst_19 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S64x128 : S_.BroadcastsInDim S64x128 (![] : Fin 0 → Fin S64x128.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  scatter_S100000_S640000x1_S640000_n_0_0_1_wf : ScatterDims.WF S100000 S640000x1 S640000 [] [0] [0] 1
  dot_S100000x128_S128x128_S100000x128_1_0_0_1_n_n_wf : DotDims.WF S100000x128 S128x128 S100000x128 [1] [0] [0] [1] [] []
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1
  dot_S64x128_S128x10_S64x10_1_0_0_1_n_n_wf : DotDims.WF S64x128 S128x10 S64x10 [1] [0] [0] [1] [] []

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

class Facts : Prop extends Facts₀ where

variable [Facts]
-- ==== Proof.KernelRun.lean ====
/-
  The idealized kernel's run, with its result named.  The program is four kernel regions among stretches of host
  operations; every weakly fair execution terminates, and in every final state each unscoped buffer of a core holds the
  contents of the last segment boundary.  Read at the result buffer this names the program's result as the last region's
  output array after its write-backs; read at the fourteen argument buffers it says they end as launched.
-/
import proofs.«117925_j70317204570424_1_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the last
    boundary's contents there, and the argument buffers end as launched. -/
theorem run : θ_run defs (onTc (τ := τ) (main (F := F))) ⟨m, fun _ => 0, ρ⟩ (fun r => ∀ c : Dev nD,
      r.2.mem ((c.tc : Thread nD τ).loc main_v66) = W8 m ρ c (Proc.devRef .tc main_v66)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v66 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c)⟩)

end Cert.KernelIdeal.ValueRun

end
-- ==== Proof.LibRowOps.lean ====
/-
  General lemmas about matrices of extended reals read entry by entry: a product of two matrices accumulated into zero, with
  the second operand contracted along its second axis (rows against rows) or along its first (the plain product), is the
  finite sum of the entries' products; a vector kept as a column (a unit second axis) and spread over the columns of a
  matrix reads its own row; and the sum, or the maximum, along the rows of a matrix is the finite sum, or the fold of max,
  over that row's entries.
-/
import Idealize.ShloMosaic.Lib.ValueLayout
import Idealize.ShloMosaic.PureOps.Ideal.Laws

noncomputable section
namespace Cert.KernelIdeal.Pay
open Idealize.ShloMosaic Idealize.ShloMosaic.ValueIdx

/-! ## A product of two matrices read at an entry -/

section Rows
variable (M K N : Nat)

/-- Contracting the second axis of both operands: the left index keeps the output's row on axis 0. -/
theorem rows_lhs0 (y : (⟨2, ![M, N]⟩ : Shape).Idx) (q : (DotDims.transposedRhs M K N).contr.Idx) :
    ((DotDims.transposedRhs M K N).lhsIdx y q 0).val = (y 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl
/-- … and the right index keeps the output's column on axis 0. -/
theorem rows_rhs0 (y : (⟨2, ![M, N]⟩ : Shape).Idx) (q : (DotDims.transposedRhs M K N).contr.Idx) :
    ((DotDims.transposedRhs M K N).rhsIdx y q 0).val = (y 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

/-- `A` (M x K) against `B` (N x K), both contracted along their second axis, accumulated into zero: entry `(i, j)` is
    the dot product of row `i` of `A` and row `j` of `B`. -/
theorem matmul_rows_apply {φ₁ φ₂ : FTy} (prec : Option ContractPrecision)
    (A : FVec Ideal ⟨2, ![M, K]⟩ φ₁) (B : FVec Ideal ⟨2, ![N, K]⟩ φ₂) (i : Fin M) (j : Fin N) :
    matmul (DotDims.transposedRhs M K N) prec A B (constant ⟨2, ![M, N]⟩ .f32 0x00000000#32) (ix2 i j)
      = ∑ e : Fin K, A (ix2 i e) * B (ix2 j e) := by
  show FloatOps.matmul _ _ _ _ _ _ = _
  rw [Ideal.matmul_constant_zero_apply, ← Equiv.sum_comp (contrEquiv1 (DotDims.transposedRhs M K N) K rfl rfl).symm]
  refine Finset.sum_congr rfl fun e _ => ?_
  have he := contrEquiv1_symm_val (DotDims.transposedRhs M K N) K rfl rfl e
  have el : (DotDims.transposedRhs M K N).lhsIdx (ix2 i j) ((contrEquiv1 (DotDims.transposedRhs M K N) K rfl rfl).symm e) = ix2 i e :=
    funext fun a => Fin.ext (by
      match a with
      | ⟨0, _⟩ => exact rows_lhs0 M K N _ _
      | ⟨1, _⟩ => exact ((DotDims.transposedRhs M K N).lhsIdx_val_of_single rfl _ _).trans he)
  have er : (DotDims.transposedRhs M K N).rhsIdx (ix2 i j) ((contrEquiv1 (DotDims.transposedRhs M K N) K rfl rfl).symm e) = ix2 j e :=
    funext fun a => Fin.ext (by
      match a with
      | ⟨0, _⟩ => exact rows_rhs0 M K N _ _
      | ⟨1, _⟩ => exact ((DotDims.transposedRhs M K N).rhsIdx_val_of_single rfl _ _).trans he)
  rw [el, er]

end Rows

section Plain
variable (M K N : Nat)

/-- The plain product: the left index keeps the output's row on axis 0. -/
theorem plain_lhs0 (y : (⟨2, ![M, N]⟩ : Shape).Idx) (q : (DotDims.plain M K N).contr.Idx) :
    ((DotDims.plain M K N).lhsIdx y q 0).val = (y 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl
/-- … and the right index keeps the output's column on axis 1. -/
theorem plain_rhs1 (y : (⟨2, ![M, N]⟩ : Shape).Idx) (q : (DotDims.plain M K N).contr.Idx) :
    ((DotDims.plain M K N).rhsIdx y q 1).val = (y 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- `A` (M x K) against `B` (K x N), the plain product accumulated into zero: entry `(i, j)` is the dot product of row
    `i` of `A` and column `j` of `B`. -/
theorem matmul_plain_apply {φ₁ φ₂ : FTy} (prec : Option ContractPrecision)
    (A : FVec Ideal ⟨2, ![M, K]⟩ φ₁) (B : FVec Ideal ⟨2, ![K, N]⟩ φ₂) (i : Fin M) (j : Fin N) :
    matmul (DotDims.plain M K N) prec A B (constant ⟨2, ![M, N]⟩ .f32 0x00000000#32) (ix2 i j)
      = ∑ e : Fin K, A (ix2 i e) * B (ix2 e j) := by
  show FloatOps.matmul _ _ _ _ _ _ = _
  rw [Ideal.matmul_constant_zero_apply, ← Equiv.sum_comp (contrEquiv1 (DotDims.plain M K N) K rfl rfl).symm]
  refine Finset.sum_congr rfl fun e _ => ?_
  have he := contrEquiv1_symm_val (DotDims.plain M K N) K rfl rfl e
  have el : (DotDims.plain M K N).lhsIdx (ix2 i j) ((contrEquiv1 (DotDims.plain M K N) K rfl rfl).symm e) = ix2 i e :=
    funext fun a => Fin.ext (by
      match a with
      | ⟨0, _⟩ => exact plain_lhs0 M K N _ _
      | ⟨1, _⟩ => exact ((DotDims.plain M K N).lhsIdx_val_of_single rfl _ _).trans he)
  have er : (DotDims.plain M K N).rhsIdx (ix2 i j) ((contrEquiv1 (DotDims.plain M K N) K rfl rfl).symm e) = ix2 e j :=
    funext fun a => Fin.ext (by
      match a with
      | ⟨0, _⟩ => exact ((DotDims.plain M K N).rhsIdx_val_of_single rfl _ _).trans he
      | ⟨1, _⟩ => exact plain_rhs1 M K N _ _)
  rw [el, er]

end Plain

/-! ## A column kept as a unit axis -/

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A row statistic kept as a column and spread over `b` columns reads, at `(p, c)`, the statistic of row `p`. -/
theorem keepdims_apply {α : Type} {a b : ℕ} (x : (⟨1, ![a]⟩ : Shape).Idx → α)
    (h : (⟨1, ![a]⟩ : Shape).ShapeCasts ⟨2, ![a, 1]⟩) (h' : (⟨2, ![a, 1]⟩ : Shape).Broadcasts ⟨2, ![a, b]⟩)
    (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

/-! ## A reduction along the rows of a matrix -/

/-- The source index over row `p` with column `k` inserted. -/
theorem lift_row {a b : ℕ} (h : (⟨2, ![a, b]⟩ : Shape).Reduces [1] ⟨1, ![a]⟩) (p : Fin a) (k : Fin b) :
    h.lift (ix1 p) k = ix2 p k :=
  funext fun c => Fin.ext (by
    match c with
    | ⟨0, _⟩ => rfl
    | ⟨1, _⟩ => rfl)

/-- The sum along axis 1 of an `[a, b]` array, at row `p`, is the sum of that row's `b` entries. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) := by
  refine (Ideal.multiReduction_add_single src acc h hφ hacc (ix1 p)).trans ?_
  show ∑ k : Fin b, src (h.lift (ix1 p) k) = _
  exact Finset.sum_congr rfl fun k _ => congrArg src (lift_row h p k)

/-- The maximum along axis 1 of an `[a, b]` array, at row `p`, is the fold of `max` from the accumulator's value over
    that row's `b` entries. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) := by
  refine (Ideal.multiReduction_maximumf_single src acc h hφ hacc (ix1 p)).trans ?_
  show (Finset.univ : Finset (Fin b)).fold max (Ideal.ofBits φ acc) (fun k => src (h.lift (ix1 p) k)) = _
  exact congrArg (fun f => (Finset.univ : Finset (Fin b)).fold max (Ideal.ofBits φ acc) f) (funext fun k => congrArg src (lift_row h p k))

end Cert.KernelIdeal.Pay
end
-- ==== Proof.LibHostProduct.lean ====
/-
  The host's product of two matrices of extended reals, read entry by entry: with no batch axis and the second operand
  contracted along its first axis, entry (i, j) is the finite sum over e of A(i, e) · B(e, j) — the same sum a product
  accumulated into zero has, so a product computed in blocks of rows and the host's one product agree wherever both read
  the same rows.
-/
import proofs.«117925_j70317204570424_1_alg».proof.Proof.LibRowOps

noncomputable section
namespace Cert.KernelIdeal.Pay
open Idealize.ShloMosaic Idealize.ShloMosaic.ValueIdx

/-- The host's plain product `A` (M x K) by `B` (K x N): entry `(i, j)` is the dot product of row `i` of `A` and
    column `j` of `B`. -/
theorem hostDot_plain_apply (M K N : Nat) {φ₁ φ₂ : FTy} (prec : Option ContractPrecision)
    (A : FVec Ideal ⟨2, ![M, K]⟩ φ₁) (B : FVec Ideal ⟨2, ![K, N]⟩ φ₂) (i : Fin M) (j : Fin N) :
    Host.dotGeneral (DotDims.plain M K N) prec A B (ix2 i j) = ∑ e : Fin K, A (ix2 i e) * B (ix2 e j) := by
  show FloatOps.dotGeneral _ _ _ _ _ _ = _
  rw [Ideal.dotGeneral_apply, ← Equiv.sum_comp (contrEquiv1 (DotDims.plain M K N) K rfl rfl).symm]
  refine Finset.sum_congr rfl fun e _ => ?_
  have he := contrEquiv1_symm_val (DotDims.plain M K N) K rfl rfl e
  have el : (DotDims.plain M K N).lhsIdx (ix2 i j) ((contrEquiv1 (DotDims.plain M K N) K rfl rfl).symm e) = ix2 i e :=
    funext fun a => Fin.ext (by
      match a with
      | ⟨0, _⟩ => exact plain_lhs0 M K N _ _
      | ⟨1, _⟩ => exact ((DotDims.plain M K N).lhsIdx_val_of_single rfl _ _).trans he)
  have er : (DotDims.plain M K N).rhsIdx (ix2 i j) ((contrEquiv1 (DotDims.plain M K N) K rfl rfl).symm e) = ix2 e j :=
    funext fun a => Fin.ext (by
      match a with
      | ⟨0, _⟩ => exact ((DotDims.plain M K N).rhsIdx_val_of_single rfl _ _).trans he
      | ⟨1, _⟩ => exact plain_rhs1 M K N _ _)
  rw [el, er]

/-- So a product accumulated into zero over any block of rows of `A` that sits at rows `off + ·` of a taller matrix
    `A'` is, entry by entry, the host's product of the taller matrix at the shifted row. -/
theorem matmul_block_eq_hostDot (M M' K N : Nat) {φ₁ φ₂ : FTy} (prec prec' : Option ContractPrecision)
    (A : FVec Ideal ⟨2, ![M, K]⟩ φ₁) (A' : FVec Ideal ⟨2, ![M', K]⟩ φ₁) (B : FVec Ideal ⟨2, ![K, N]⟩ φ₂)
    (i : Fin M) (i' : Fin M') (j : Fin N) (hrow : ∀ e : Fin K, A (ix2 i e) = A' (ix2 i' e)) :
    matmul (DotDims.plain M K N) prec A B (constant ⟨2, ![M, N]⟩ .f32 0x00000000#32) (ix2 i j)
      = Host.dotGeneral (DotDims.plain M' K N) prec' A' B (ix2 i' j) := by
  rw [matmul_plain_apply, hostDot_plain_apply]
  exact Finset.sum_congr rfl fun e _ => by rw [hrow e]

end Cert.KernelIdeal.Pay
end
-- ==== Proof.Tile.lean ====
/-
  What one grid point of each kernel computes, read at one entry.

  A convolution kernel's grid point holds 5000 consecutive rows of two tall 100000 x 128 matrices (the neighbour means and
  the node features) and the whole of two 128 x 128 weight matrices and a 128-long bias.  It stores
  (rows of means) · Wl + bias + (rows of features) · Wr, clamped at zero in the first two convolutions.  A change of float
  format is the identity on extended reals, and a product accumulated into zero over a block of rows is, entry by entry,
  the tall matrix's product at the block's row: so entry (p, q) of the stored tile is the dense part of the convolution at
  the tall matrices' row that row p of the block is.  The last kernel has one grid point holding everything.
-/
import proofs.«117925_j70317204570424_1_alg».proof.Proof.Gen.KernelIdeal.Skeleton
import proofs.«117925_j70317204570424_1_alg».proof.Proof.LibHostProduct

noncomputable section

namespace Cert.KernelIdeal.Tile

open Cert.KernelIdeal Cert.KernelIdeal.Gen Cert.KernelIdeal.Pay Idealize.ShloMosaic Idealize.ShloMosaic.ValueIdx

/-- A tall matrix of node rows. -/
abbrev Tall := FVec Ideal (⟨2, ![100000, 128]⟩ : Shape) .f32

/-- The bias, one value per feature, laid as a row and repeated over the block's rows, reads its feature. -/
theorem biasTile_apply (b : FVec Ideal S128 .f32) (p : Fin 5000) (q : Fin 128) :
    broadcastTo S5000x128 (shapeCast S1x128 b shapeCasts_S128_S1x128) broadcasts_S1x128_S5000x128 (ix2 p q) = b (ix1 q) :=
  (broadcastTo_1b_ab_apply _ broadcasts_S1x128_S5000x128 p q).trans (shapeCast_a_1a_apply b shapeCasts_S128_S1x128 0 q)

/-- The unclamped tile at entry (p, q): the two products are the tall matrices' products at the row `p'` that block row
    `p` is a copy of. -/
theorem linTile_apply (A X : FVec Ideal S5000x128 .f32) (Wl Wr : FVec Ideal S128x128 .f32) (b : FVec Ideal S128 .f32)
    (A' X' : Tall) (p : Fin 5000) (p' : Fin 100000) (q : Fin 128)
    (hA : ∀ e : Fin 128, A (ix2 p e) = A' (ix2 p' e)) (hX : ∀ e : Fin 128, X (ix2 p e) = X' (ix2 p' e)) :
    addf (addf (matmul dot_S5000x128_S128x128_S5000x128_1_0_0_1_n_n none (truncf .bf16 A bitsLt_bf16_f32) (truncf .bf16 Wl bitsLt_bf16_f32) (constant S5000x128 .f32 0x00000000#32))
        (broadcastTo S5000x128 (shapeCast S1x128 b shapeCasts_S128_S1x128) broadcasts_S1x128_S5000x128))
      (matmul dot_S5000x128_S128x128_S5000x128_1_0_0_1_n_n none (truncf .bf16 X bitsLt_bf16_f32) (truncf .bf16 Wr bitsLt_bf16_f32) (constant S5000x128 .f32 0x00000000#32)) (ix2 p q)
    = Host.dotGeneral (F := Ideal) (DotDims.plain 100000 128 128) none A' Wl (ix2 p' q) + b (ix1 q)
      + Host.dotGeneral (F := Ideal) (DotDims.plain 100000 128 128) none X' Wr (ix2 p' q) := by
  show matmul (F := Ideal) (DotDims.plain 5000 128 128) none A Wl (constant ⟨2, ![5000, 128]⟩ .f32 0x00000000#32) (ix2 p q)
      + broadcastTo S5000x128 (shapeCast S1x128 b shapeCasts_S128_S1x128) broadcasts_S1x128_S5000x128 (ix2 p q)
      + matmul (F := Ideal) (DotDims.plain 5000 128 128) none X Wr (constant ⟨2, ![5000, 128]⟩ .f32 0x00000000#32) (ix2 p q) = _
  rw [matmul_block_eq_hostDot 5000 100000 128 128 none none A A' Wl p p' q hA,
    matmul_block_eq_hostDot 5000 100000 128 128 none none X X' Wr p p' q hX, biasTile_apply]

/-- The first convolution's stored tile at (p, q). -/
theorem pay0_apply (A X : FVec Ideal S5000x128 .f32) (Wl Wr : FVec Ideal S128x128 .f32) (b : FVec Ideal S128 .f32)
    (A' X' : Tall) (p : Fin 5000) (p' : Fin 100000) (q : Fin 128)
    (hA : ∀ e : Fin 128, A (ix2 p e) = A' (ix2 p' e)) (hX : ∀ e : Fin 128, X (ix2 p e) = X' (ix2 p' e)) :
    k0_pay1 (F := Ideal) A X Wl Wr b (ix2 p q)
      = max (Host.dotGeneral (F := Ideal) (DotDims.plain 100000 128 128) none A' Wl (ix2 p' q) + b (ix1 q)
          + Host.dotGeneral (F := Ideal) (DotDims.plain 100000 128 128) none X' Wr (ix2 p' q)) 0 := by
  have h := linTile_apply A X Wl Wr b A' X' p p' q hA hX
  unfold k0_pay1
  simp only [shapeCast_self]
  exact congrArg₂ max h Ideal.ofBits_zero_f32

/-- The second convolution's stored tile at (p, q). -/
theorem pay1_apply (A X : FVec Ideal S5000x128 .f32) (Wl Wr : FVec Ideal S128x128 .f32) (b : FVec Ideal S128 .f32)
    (A' X' : Tall) (p : Fin 5000) (p' : Fin 100000) (q : Fin 128)
    (hA : ∀ e : Fin 128, A (ix2 p e) = A' (ix2 p' e)) (hX : ∀ e : Fin 128, X (ix2 p e) = X' (ix2 p' e)) :
    k1_pay1 (F := Ideal) A X Wl Wr b (ix2 p q)
      = max (Host.dotGeneral (F := Ideal) (DotDims.plain 100000 128 128) none A' Wl (ix2 p' q) + b (ix1 q)
          + Host.dotGeneral (F := Ideal) (DotDims.plain 100000 128 128) none X' Wr (ix2 p' q)) 0 := by
  have h := linTile_apply A X Wl Wr b A' X' p p' q hA hX
  unfold k1_pay1
  simp only [shapeCast_self]
  exact congrArg₂ max h Ideal.ofBits_zero_f32

/-- The third convolution's stored tile at (p, q): no clamp. -/
theorem pay2_apply (A X : FVec Ideal S5000x128 .f32) (Wl Wr : FVec Ideal S128x128 .f32) (b : FVec Ideal S128 .f32)
    (A' X' : Tall) (p : Fin 5000) (p' : Fin 100000) (q : Fin 128)
    (hA : ∀ e : Fin 128, A (ix2 p e) = A' (ix2 p' e)) (hX : ∀ e : Fin 128, X (ix2 p e) = X' (ix2 p' e)) :
    k2_pay1 (F := Ideal) A X Wl Wr b (ix2 p q)
      = Host.dotGeneral (F := Ideal) (DotDims.plain 100000 128 128) none A' Wl (ix2 p' q) + b (ix1 q)
          + Host.dotGeneral (F := Ideal) (DotDims.plain 100000 128 128) none X' Wr (ix2 p' q) := by
  have h := linTile_apply A X Wl Wr b A' X' p p' q hA hX
  unfold k2_pay1
  simp only [shapeCast_self]
  exact h

/-- The last kernel's stored array at (p, q): the pooled rows times the 128 x 10 matrix, plus the bias. -/
theorem pay3_apply (G : FVec Ideal S64x128 .f32) (W : FVec Ideal S128x10 .f32) (b : FVec Ideal S10 .f32) (p : Fin 64) (q : Fin 10) :
    k3_pay1 (F := Ideal) G W b (ix2 p q)
      = Host.dotGeneral (F := Ideal) (DotDims.plain 64 128 10) none G W (ix2 p q) + b (ix1 q) := by
  unfold k3_pay1
  simp only [shapeCast_self]
  show matmul (F := Ideal) (DotDims.plain 64 128 10) none G W (constant ⟨2, ![64, 10]⟩ .f32 0x00000000#32) (ix2 p q)
      + broadcastTo S64x10 (shapeCast S1x10 b shapeCasts_S10_S1x10) broadcasts_S1x10_S64x10 (ix2 p q) = _
  rw [matmul_block_eq_hostDot 64 64 128 10 none none G G W p p q (fun _ => rfl)]
  exact congrArg (_ + ·) ((broadcastTo_1b_ab_apply _ broadcasts_S1x10_S64x10 p q).trans (shapeCast_a_1a_apply b shapeCasts_S10_S1x10 0 q))

end Cert.KernelIdeal.Tile

end
-- ==== Proof.MeanLaw.lean ====
/-
  The one law of the extended reals that joins the two programs.  A neighbourhood mean is a sum divided by the
  neighbourhood's size clamped below at one; one program divides, the other multiplies by the reciprocal of the clamped
  size.  The clamped size is at least one, so it is never zero, and off zero a quotient is by definition the product with
  the inverse: the two agree for EVERY extended real numerator and size (an infinite size has inverse zero on both sides),
  so nothing about finiteness is used.
-/
import Idealize.ShloMosaic.PureOps.Ideal
import Idealize.ShloMosaic.PureOps.Ideal.Laws

noncomputable section
namespace Cert.Sage
open Idealize.ShloMosaic

/-- The single-precision pattern `0x3F800000` denotes the real number one. -/
theorem ofBits_one_f32 : Ideal.ofBits .f32 0x3F800000#32 = 1 := by
  simp [Ideal.ofBits, Ideal.ieee]
  rw [← EReal.coe_mul]
  exact_mod_cast (by norm_num : (8388608 : ℝ) * (2 ^ 23)⁻¹ = 1)

/-- A size clamped below at one is not zero. -/
theorem max_one_ne_zero (d : EReal) : max d 1 ≠ 0 :=
  ne_of_gt (lt_of_lt_of_le zero_lt_one (le_max_right d 1))

/-- Multiplying by the reciprocal of a clamped size is dividing by it, on all of the extended reals. -/
theorem mul_recip_clamped (x d : EReal) : x * Ideal.div 1 (max d 1) = Ideal.div x (max d 1) := by
  unfold Ideal.div
  rw [if_neg (max_one_ne_zero d), if_neg (max_one_ne_zero d), one_mul]

end Cert.Sage
end
-- ==== Proof.Spec.lean ====
/-
  The network as one function of the fourteen arguments, in the vocabulary both programs share.

  A graph has 100000 nodes with 128 features each and 640000 directed edges (row 0 of the edge array the sources, row 1
  the targets).  One convolution replaces a node's features h by  mean(h over the node's in-neighbours) · Wl + b + h · Wr,
  where the mean is the sum over incoming edges divided by the in-degree clamped below at one.  Three convolutions, the
  first two followed by a clamp at zero, then a mean of the node rows over each of 64 graphs (again a sum divided by a
  clamped count), then one more product with a 128 x 10 matrix plus a bias.

  The gathers and adding scatters that build the neighbour sums, the degree and the per-graph sums are never opened here:
  both programs apply the same ones to the same operands.  What is proved in this file: a per-node scalar spread over the
  128 columns reads its own node; multiplying a neighbour sum by the reciprocal of the clamped degree is dividing it by
  the clamped degree; and the dense part of a convolution read at one entry.
-/
import proofs.«117925_j70317204570424_1_alg».proof.Proof.Gen.ReferenceIdeal.Read
import proofs.«117925_j70317204570424_1_alg».proof.Proof.MeanLaw

noncomputable section

namespace Cert.Sage

open Cert.ReferenceIdeal Cert.ReferenceIdeal.Gen Cert.ReferenceIdeal.Read Idealize.ShloMosaic Idealize.ShloMosaic.ValueIdx

abbrev Nodes := FVec Ideal S100000x128 .f32
abbrev Edges := IVec S2x640000 32
abbrev Batch := IVec S100000 32
abbrev Square := FVec Ideal S128x128 .f32
abbrev Row := FVec Ideal S128 .f32
abbrev PerNode := FVec Ideal S100000 .f32
abbrev Pooled := FVec Ideal S64x128 .f32
abbrev OutW := FVec Ideal S128x10 .f32
abbrev OutB := FVec Ideal S10 .f32
abbrev Logits := FVec Ideal S64x10 .f32

/-! ## A per-node scalar spread over the 128 feature columns -/

/-- A value per node, kept as a column and repeated along the 128 features. -/
def spread (f : PerNode) : Nodes :=
  broadcastInDim S100000x128 ![0, 1] bcast_S100000x1_S100000x128_0_1 (broadcastInDim S100000x1 ![0] bcast_S100000_S100000x1_0 f)

theorem column_apply (f : PerNode) (j : S100000x1.Idx) :
    broadcastInDim S100000x1 ![0] bcast_S100000_S100000x1_0 f j = f (idx_main_v20 j) :=
  broadcastInDim_apply _ bcast_S100000_S100000x1_0 f j (idx_main_v20 j) (fun a => match a with
    | ⟨0, _⟩ => by show (j 0).val = if (100000 : Nat) = 1 then 0 else (j 0).val; rw [if_neg (by decide)])

theorem widen_apply (y : FVec Ideal S100000x1 .f32) (i : S100000x128.Idx) :
    broadcastInDim S100000x128 ![0, 1] bcast_S100000x1_S100000x128_0_1 y i = y (idx_main_v21 i) :=
  broadcastInDim_apply _ bcast_S100000x1_S100000x128_0_1 y i (idx_main_v21 i) (fun a => match a with
    | ⟨0, _⟩ => by show (i 0).val = if (100000 : Nat) = 1 then 0 else (i 0).val; rw [if_neg (by decide)]
    | ⟨1, _⟩ => by show 0 = if (1 : Nat) = 1 then 0 else (i 1).val; rw [if_pos rfl])

/-- Entry (node, feature) of a spread scalar is the node's scalar. -/
theorem spread_apply (f : PerNode) (i : S100000x128.Idx) : spread f i = f (idx_main_v20 (idx_main_v21 i)) := by
  unfold spread
  rw [widen_apply, column_apply]

/-! ## The neighbourhood mean, by division and by the reciprocal -/

/-- Each node's sum of the feature rows at the sources of its incoming edges. -/
def nbrSum (ei : Edges) (h : Nodes) : Nodes :=
  Host.scatterAdd (F := Ideal) scatter_S100000x128_S640000x1_S640000x128_1_0_0_1 (val_main_v11 (F := Ideal)) (val_main_v12 (F := Ideal) ei)
    (Host.gather gather_S100000x128_S640000x1_S640000x128_1_0_n_n_0_1_1128 h (val_main_v9 (F := Ideal) ei))

/-- The same sum from the two edge rows kept apart: the sources (a negative index wraps around once) and the targets. -/
def nbrSumOf (src tgt : IVec S640000 32) (h : Nodes) : Nodes :=
  Host.scatterAdd (F := Ideal) scatter_S100000x128_S640000x1_S640000x128_1_0_0_1 (val_main_v11 (F := Ideal))
    (broadcastInDim S640000x1 ![0] bcast_S640000_S640000x1_0 tgt)
    (Host.gather gather_S100000x128_S640000x1_S640000x128_1_0_n_n_0_1_1128 h
      (broadcastInDim S640000x1 ![0] bcast_S640000_S640000x1_0
        (select (cmpi .slt src (val_main_v4 (F := Ideal))) (addi src (val_main_v6 (F := Ideal))) src)))

theorem nbrSum_eq (ei : Edges) (h : Nodes) :
    nbrSum ei h = nbrSumOf (val_main_v1 (F := Ideal) ei) (val_main_v3 (F := Ideal) ei) h := rfl

/-- The in-degree clamped below at one. -/
def clampedDeg (ei : Edges) : PerNode := val_main_v19 (F := Ideal) ei

/-- A quotient of two arrays of one shape, read at an index. -/
theorem quot_apply {s : Shape} {φ : FTy} (a b : FVec Ideal s φ) (i : s.Idx) :
    Host.divf (F := Ideal) a b i = Ideal.div (a i) (b i) := rfl

/-- The mean as the reference takes it: the sum divided by the clamped degree. -/
def meanDiv (ei : Edges) (s : Nodes) : Nodes := Host.divf (F := Ideal) s (spread (clampedDeg ei))

/-- One over the clamped degree. -/
def recipDeg (ei : Edges) : PerNode := Host.divf (F := Ideal) (val_main_v18 (F := Ideal)) (clampedDeg ei)

/-- The mean as the kernel's host code takes it: the sum times one over the clamped degree. -/
def meanMul (ei : Edges) (s : Nodes) : Nodes := mulf (F := Ideal) s (spread (recipDeg ei))

/-- The constant the degree is clamped against, and the numerator of the reciprocal, is one. -/
theorem ones_apply (j : S100000.Idx) : val_main_v18 (F := Ideal) j = 1 := by
  rw [val_main_v18_apply, val_main_cst_3_apply]
  exact ofBits_one_f32

theorem clampedDeg_apply (ei : Edges) (j : S100000.Idx) : clampedDeg ei j = max (val_main_v17 (F := Ideal) ei j) 1 := by
  unfold clampedDeg
  rw [val_main_v19_apply, ones_apply]
  rfl

/-- The two means are one function: at every entry, a product with the reciprocal of a size that is at least one is the
    quotient by it. -/
theorem meanMul_eq_meanDiv (ei : Edges) (s : Nodes) : meanMul ei s = meanDiv ei s := by
  funext i
  unfold meanMul meanDiv recipDeg
  rw [mulf_apply, quot_apply, spread_apply, spread_apply, quot_apply, ones_apply, clampedDeg_apply]
  exact mul_recip_clamped _ _

/-! ## The dense part of a convolution -/

/-- The bias, a value per feature, repeated over the nodes. -/
def biasRows (b : Row) : Nodes := val_main_v25 (F := Ideal) b

/-- `a · Wl + b + h · Wr`, the two products the host's. -/
def lin (a h : Nodes) (Wl : Square) (b : Row) (Wr : Square) : Nodes :=
  addf (F := Ideal) (addf (F := Ideal) (Host.dotGeneral (F := Ideal) dot_S100000x128_S128x128_S100000x128_1_0_0_1_n_n none a Wl) (biasRows b))
    (Host.dotGeneral (F := Ideal) dot_S100000x128_S128x128_S100000x128_1_0_0_1_n_n none h Wr)

/-- The clamp at zero. -/
def relu (y : Nodes) : Nodes := maximumf (F := Ideal) y (val_main_call0_v0 (F := Ideal))

theorem biasRows_apply (b : Row) (p : Fin 100000) (q : Fin 128) : biasRows b (ix2 p q) = b (ix1 q) := by
  unfold biasRows
  rw [val_main_v25_apply, val_main_v24_apply]
  exact congrArg b (funext fun a => Fin.ext (by match a with | ⟨0, _⟩ => rfl))

theorem zeros_apply (i : S100000x128.Idx) : val_main_call0_v0 (F := Ideal) i = 0 := by
  rw [val_main_call0_v0_apply, val_main_call0_cst_apply]
  exact Ideal.ofBits_zero_f32

/-- The dense part at entry (node p, feature q). -/
theorem tallDot_eq : dot_S100000x128_S128x128_S100000x128_1_0_0_1_n_n = DotDims.plain 100000 128 128 := rfl

theorem lin_apply (a h : Nodes) (Wl : Square) (b : Row) (Wr : Square) (p : Fin 100000) (q : Fin 128) :
    lin a h Wl b Wr (ix2 p q)
      = Host.dotGeneral (F := Ideal) (DotDims.plain 100000 128 128) none a Wl (ix2 p q) + b (ix1 q)
        + Host.dotGeneral (F := Ideal) (DotDims.plain 100000 128 128) none h Wr (ix2 p q) := by
  unfold lin
  rw [addf_apply, addf_apply, biasRows_apply, tallDot_eq]

theorem relu_apply (y : Nodes) (i : S100000x128.Idx) : relu y i = max (y i) 0 := by
  unfold relu
  rw [maximumf_apply, zeros_apply]

/-! ## One convolution, the pooling and the last product -/

/-- One convolution without its clamp. -/
def conv (ei : Edges) (h : Nodes) (Wl : Square) (b : Row) (Wr : Square) : Nodes :=
  lin (meanDiv ei (nbrSum ei h)) h Wl b Wr

/-- The mean of the node rows over each graph: a sum per graph divided by the clamped count. -/
def pool (batch : Batch) (h : Nodes) : Pooled :=
  Host.divf (F := Ideal) (Host.scatterAdd (F := Ideal) scatter_S64x128_S100000x1_S100000x128_1_0_0_1 (val_main_v81 (F := Ideal)) (val_main_v82 (F := Ideal) batch) h)
    (val_main_v91 (F := Ideal) batch)

/-- The last product and its bias. -/
def head (g : Pooled) (W : OutW) (b : OutB) : Logits :=
  addf (F := Ideal) (Host.dotGeneral (F := Ideal) dot_S64x128_S128x10_S64x10_1_0_0_1_n_n none g W) (val_main_v95 (F := Ideal) b)

theorem outBias_apply (b : OutB) (p : Fin 64) (q : Fin 10) : val_main_v95 (F := Ideal) b (ix2 p q) = b (ix1 q) := by
  rw [val_main_v95_apply, val_main_v94_apply]
  exact congrArg b (funext fun a => Fin.ext (by match a with | ⟨0, _⟩ => rfl))

theorem outDot_eq : dot_S64x128_S128x10_S64x10_1_0_0_1_n_n = DotDims.plain 64 128 10 := rfl

theorem head_apply (g : Pooled) (W : OutW) (b : OutB) (p : Fin 64) (q : Fin 10) :
    head g W b (ix2 p q) = Host.dotGeneral (F := Ideal) (DotDims.plain 64 128 10) none g W (ix2 p q) + b (ix1 q) := by
  unfold head
  rw [addf_apply, outBias_apply, outDot_eq]

/-- The whole network. -/
def model (x : Nodes) (ei : Edges) (batch : Batch) (W1l : Square) (b1 : Row) (W1r : Square) (W2l : Square) (b2 : Row)
    (W2r : Square) (W3l : Square) (b3 : Row) (W3r : Square) (Wout : OutW) (bout : OutB) : Logits :=
  head (pool batch (conv ei (relu (conv ei (relu (conv ei x W1l b1 W1r)) W2l b2 W2r)) W3l b3 W3r)) Wout bout

end Cert.Sage

end
-- ==== Proof.Conv0.lean ====
/-
  The first convolution's kernel, over its whole grid.

  Its 20 grid points each take 5000 consecutive rows of the neighbour means and of the node features, the two 128 x 128
  weight matrices and the bias whole, and write 5000 rows of the result.  Block row p of grid point t is row 5000 t + p of
  the tall matrices, so what point t writes back is rows 5000 t ... 5000 t + 4999 of ONE 100000 x 128 array: the dense
  part of the convolution of the arrays the region finds, clamped at zero.  The 20 blocks tile the 100000 rows (row r lies
  in block r / 5000), so the region's output array ends as that array.
-/
import proofs.«117925_j70317204570424_1_alg».proof.Proof.Gen.KernelIdeal.Frame
import proofs.«117925_j70317204570424_1_alg».proof.Proof.Tile
import proofs.«117925_j70317204570424_1_alg».proof.Proof.Spec
import Idealize.ShloMosaic.Lib.Pipeline.Value

set_option maxRecDepth 16384

noncomputable section

namespace Cert.KernelIdeal.Conv0

open Cert.KernelIdeal Cert.KernelIdeal.Gen Cert.KernelIdeal.Tile
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a <;> rfl

/-- The printed index maps over the 20 grid points: the three row-blocked windows sit at block row `t`, the weights and
    the bias at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = t.val ∧ win0_5.index t (1 : Fin 2) = 0 ∧ t.val < 20 :=
  (by decide +kernel : ∀ t : Fin grid0.N, _)

/-- What the region leaves in its output array: the clamped dense part of the convolution of the arrays it finds. -/
def out (c : Dev nD) : Sage.Nodes :=
  Sage.relu (Sage.lin (V c main_v24) (V c main_arg0) (V c main_arg3) (V c main_arg4) (V c main_arg5))

/-! ## Where a block's entries sit in the arrays -/

theorem emb0 (t : Fin cfg0.N) (p : Fin 5000) (e : Fin 128) (h : t.val * 5000 + p.val < 100000) :
    ((cfg0.win 0).blk t).view.emb (ix2 p e) = ix2 (⟨t.val * 5000 + p.val, h⟩ : Fin 100000) e := by
  obtain ⟨a0, a1, -⟩ := idx_facts t
  funext a; apply Fin.ext
  match a with
  | ⟨0, _⟩ => show win0_0.index t (0 : Fin 2) * 5000 + 1 * p.val = t.val * 5000 + p.val; rw [a0]; omega
  | ⟨1, _⟩ => show win0_0.index t (1 : Fin 2) * 128 + 1 * e.val = e.val; rw [a1]; omega

theorem emb1 (t : Fin cfg0.N) (p : Fin 5000) (e : Fin 128) (h : t.val * 5000 + p.val < 100000) :
    ((cfg0.win 1).blk t).view.emb (ix2 p e) = ix2 (⟨t.val * 5000 + p.val, h⟩ : Fin 100000) e := by
  obtain ⟨-, -, a0, a1, -⟩ := idx_facts t
  funext a; apply Fin.ext
  match a with
  | ⟨0, _⟩ => show win0_1.index t (0 : Fin 2) * 5000 + 1 * p.val = t.val * 5000 + p.val; rw [a0]; omega
  | ⟨1, _⟩ => show win0_1.index t (1 : Fin 2) * 128 + 1 * e.val = e.val; rw [a1]; omega

theorem emb5 (t : Fin cfg0.N) (p : Fin 5000) (e : Fin 128) (h : t.val * 5000 + p.val < 100000) :
    ((cfg0.win 5).blk t).view.emb (ix2 p e) = ix2 (⟨t.val * 5000 + p.val, h⟩ : Fin 100000) e := by
  obtain ⟨-, -, -, -, -, -, -, -, -, a0, a1, -⟩ := idx_facts t
  funext a; apply Fin.ext
  match a with
  | ⟨0, _⟩ => show win0_5.index t (0 : Fin 2) * 5000 + 1 * p.val = t.val * 5000 + p.val; rw [a0]; omega
  | ⟨1, _⟩ => show win0_5.index t (1 : Fin 2) * 128 + 1 * e.val = e.val; rw [a1]; omega

/-- Block row `p` of the means' window at point `t` is row `5000 t + p` of the means. -/
theorem rows0 (c : Dev nD) (t : Fin cfg0.N) (p : Fin 5000) (e : Fin 128) (h : t.val * 5000 + p.val < 100000) :
    iblk0 V c 0 t (ix2 p e) = V c main_v24 (ix2 (⟨t.val * 5000 + p.val, h⟩ : Fin 100000) e) := by
  unfold iblk0
  rw [View.read_apply, emb0 t p e h]
  rfl

/-- Block row `p` of the features' window at point `t` is row `5000 t + p` of the features. -/
theorem rows1 (c : Dev nD) (t : Fin cfg0.N) (p : Fin 5000) (e : Fin 128) (h : t.val * 5000 + p.val < 100000) :
    iblk0 V c 1 t (ix2 p e) = V c main_arg0 (ix2 (⟨t.val * 5000 + p.val, h⟩ : Fin 100000) e) := by
  unfold iblk0
  rw [View.read_apply, emb1 t p e h]
  rfl

/-- The left weights' window is the whole matrix at every point. -/
theorem whole2 (c : Dev nD) (t : Fin cfg0.N) (y : S128x128.Idx) : iblk0 V c 2 t y = V c main_arg3 y := by
  obtain ⟨-, -, -, -, a0, a1, -⟩ := idx_facts t
  unfold iblk0
  rw [View.read_apply]
  refine congrArg (V c main_arg3) (funext fun a => Fin.ext ?_)
  match a with
  | ⟨0, _⟩ => show win0_2.index t (0 : Fin 2) * 128 + 1 * (y 0).val = (y 0).val; rw [a0]; omega
  | ⟨1, _⟩ => show win0_2.index t (1 : Fin 2) * 128 + 1 * (y 1).val = (y 1).val; rw [a1]; omega

/-- The bias's window is the whole bias at every point. -/
theorem whole3 (c : Dev nD) (t : Fin cfg0.N) (y : S128.Idx) : iblk0 V c 3 t y = V c main_arg4 y := by
  obtain ⟨-, -, -, -, -, -, a0, -⟩ := idx_facts t
  unfold iblk0
  rw [View.read_apply]
  refine congrArg (V c main_arg4) (funext fun a => Fin.ext ?_)
  match a with
  | ⟨0, _⟩ => show win0_3.index t (0 : Fin 1) * 128 + 1 * (y 0).val = (y 0).val; rw [a0]; omega

/-- The right weights' window is the whole matrix at every point. -/
theorem whole4 (c : Dev nD) (t : Fin cfg0.N) (y : S128x128.Idx) : iblk0 V c 4 t y = V c main_arg5 y := by
  obtain ⟨-, -, -, -, -, -, -, a0, a1, -⟩ := idx_facts t
  unfold iblk0
  rw [View.read_apply]
  refine congrArg (V c main_arg5) (funext fun a => Fin.ext ?_)
  match a with
  | ⟨0, _⟩ => show win0_4.index t (0 : Fin 2) * 128 + 1 * (y 0).val = (y 0).val; rw [a0]; omega
  | ⟨1, _⟩ => show win0_4.index t (1 : Fin 2) * 128 + 1 * (y 1).val = (y 1).val; rw [a1]; omega

/-! ## What a point writes back, the cover, and the array -/

/-- What grid point `t` writes back is its 5000 rows of `out`. -/
theorem flushed_eq (c : Dev nD) (t : Fin cfg0.N) :
    (dat0 V c).flushed 5 t = ((cfg0.win 5).blk t).view.read (Elt Ideal) (out V c) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S128) hz1]
  rw [funext (whole2 V c t), funext (whole3 V c t), funext (whole4 V c t)]
  funext j
  obtain ⟨p, q, rfl⟩ : ∃ (p : Fin 5000) (q : Fin 128), j = ix2 p q := ⟨j 0, j 1, eq_ix2 j⟩
  obtain ⟨-, -, -, -, -, -, -, -, -, -, -, ht⟩ := idx_facts t
  have hp : t.val * 5000 + p.val < 100000 := by have := p.isLt; omega
  show k0_pay1 (iblk0 V c 0 t) (iblk0 V c 1 t) (V c main_arg3) (V c main_arg5) (V c main_arg4) (ix2 p q)
      = out V c (((cfg0.win 5).blk t).view.emb (ix2 p q))
  rw [emb5 t p q hp]
  refine (pay0_apply (iblk0 V c 0 t) (iblk0 V c 1 t) (V c main_arg3) (V c main_arg5) (V c main_arg4) (V c main_v24) (V c main_arg0)
    p ⟨_, hp⟩ q (fun e => rows0 V c t p e hp) (fun e => rows1 V c t p e hp)).trans ?_
  unfold out
  rw [Sage.relu_apply, Sage.lin_apply]

/-- An index of the output array is in point `t`'s block iff each coordinate is in the block's range. -/
theorem mem_blk (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v25).slice (win0_5.rect t)).set ↔ _
  rw [View.set_slice_whole, Rect.mem_set_unit]
  exact Iff.rfl

/-- Every row of the output array lies in some point's block: row `r` in block `r / 5000`. -/
theorem cover (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, htv⟩ : ∃ t : Fin cfg0.N, t.val = (i 0).val / 5000 :=
    ⟨⟨(i 0).val / 5000, by show _ < grid0.N; rw [N_0]; omega⟩, rfl⟩
  obtain ⟨-, -, -, -, -, -, -, -, -, e0, e1, -⟩ := idx_facts t
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; rw [e0, htv]; omega
  | ⟨1, _⟩ => show win0_5.index t (1 : Fin 2) * 128 ≤ (i 1).val ∧ (i 1).val < win0_5.index t (1 : Fin 2) * 128 + 128; rw [e1]; omega

/-- The region's output array after its run. -/
theorem final (c : Dev nD) : (dat0 V c).arrAt 5 cfg0.N = out V c :=
  (dat0 V c).arrAt_eq_of_cover 5 (out V c) (fun t _ => flushed_eq V c t) cover

end Cert.KernelIdeal.Conv0

end
-- ==== Proof.Conv1.lean ====
/-
  The second convolution's kernel, over its whole grid.

  Its 20 grid points each take 5000 consecutive rows of the neighbour means and of the node features, the two 128 x 128
  weight matrices and the bias whole, and write 5000 rows of the result.  Block row p of grid point t is row 5000 t + p of
  the tall matrices, so what point t writes back is rows 5000 t ... 5000 t + 4999 of ONE 100000 x 128 array: the dense
  part of the convolution of the arrays the region finds, clamped at zero.  The 20 blocks tile the 100000 rows (row r lies
  in block r / 5000), so the region's output array ends as that array.
-/
import proofs.«117925_j70317204570424_1_alg».proof.Proof.Gen.KernelIdeal.Frame
import proofs.«117925_j70317204570424_1_alg».proof.Proof.Tile
import proofs.«117925_j70317204570424_1_alg».proof.Proof.Spec
import Idealize.ShloMosaic.Lib.Pipeline.Value

set_option maxRecDepth 16384

noncomputable section

namespace Cert.KernelIdeal.Conv1

open Cert.KernelIdeal Cert.KernelIdeal.Gen Cert.KernelIdeal.Tile
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a <;> rfl

/-- The printed index maps over the 20 grid points: the three row-blocked windows sit at block row `t`, the weights and
    the bias at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = t.val ∧ win1_5.index t (1 : Fin 2) = 0 ∧ t.val < 20 :=
  (by decide +kernel : ∀ t : Fin grid1.N, _)

/-- What the region leaves in its output array: the clamped dense part of the convolution of the arrays it finds. -/
def out (c : Dev nD) : Sage.Nodes :=
  Sage.relu (Sage.lin (V c main_v38) (V c main_v25) (V c main_arg6) (V c main_arg7) (V c main_arg8))

/-! ## Where a block's entries sit in the arrays -/

theorem emb0 (t : Fin cfg1.N) (p : Fin 5000) (e : Fin 128) (h : t.val * 5000 + p.val < 100000) :
    ((cfg1.win 0).blk t).view.emb (ix2 p e) = ix2 (⟨t.val * 5000 + p.val, h⟩ : Fin 100000) e := by
  obtain ⟨a0, a1, -⟩ := idx_facts t
  funext a; apply Fin.ext
  match a with
  | ⟨0, _⟩ => show win1_0.index t (0 : Fin 2) * 5000 + 1 * p.val = t.val * 5000 + p.val; rw [a0]; omega
  | ⟨1, _⟩ => show win1_0.index t (1 : Fin 2) * 128 + 1 * e.val = e.val; rw [a1]; omega

theorem emb1 (t : Fin cfg1.N) (p : Fin 5000) (e : Fin 128) (h : t.val * 5000 + p.val < 100000) :
    ((cfg1.win 1).blk t).view.emb (ix2 p e) = ix2 (⟨t.val * 5000 + p.val, h⟩ : Fin 100000) e := by
  obtain ⟨-, -, a0, a1, -⟩ := idx_facts t
  funext a; apply Fin.ext
  match a with
  | ⟨0, _⟩ => show win1_1.index t (0 : Fin 2) * 5000 + 1 * p.val = t.val * 5000 + p.val; rw [a0]; omega
  | ⟨1, _⟩ => show win1_1.index t (1 : Fin 2) * 128 + 1 * e.val = e.val; rw [a1]; omega

theorem emb5 (t : Fin cfg1.N) (p : Fin 5000) (e : Fin 128) (h : t.val * 5000 + p.val < 100000) :
    ((cfg1.win 5).blk t).view.emb (ix2 p e) = ix2 (⟨t.val * 5000 + p.val, h⟩ : Fin 100000) e := by
  obtain ⟨-, -, -, -, -, -, -, -, -, a0, a1, -⟩ := idx_facts t
  funext a; apply Fin.ext
  match a with
  | ⟨0, _⟩ => show win1_5.index t (0 : Fin 2) * 5000 + 1 * p.val = t.val * 5000 + p.val; rw [a0]; omega
  | ⟨1, _⟩ => show win1_5.index t (1 : Fin 2) * 128 + 1 * e.val = e.val; rw [a1]; omega

/-- Block row `p` of the means' window at point `t` is row `5000 t + p` of the means. -/
theorem rows0 (c : Dev nD) (t : Fin cfg1.N) (p : Fin 5000) (e : Fin 128) (h : t.val * 5000 + p.val < 100000) :
    iblk1 V c 0 t (ix2 p e) = V c main_v38 (ix2 (⟨t.val * 5000 + p.val, h⟩ : Fin 100000) e) := by
  unfold iblk1
  rw [View.read_apply, emb0 t p e h]
  rfl

/-- Block row `p` of the features' window at point `t` is row `5000 t + p` of the features. -/
theorem rows1 (c : Dev nD) (t : Fin cfg1.N) (p : Fin 5000) (e : Fin 128) (h : t.val * 5000 + p.val < 100000) :
    iblk1 V c 1 t (ix2 p e) = V c main_v25 (ix2 (⟨t.val * 5000 + p.val, h⟩ : Fin 100000) e) := by
  unfold iblk1
  rw [View.read_apply, emb1 t p e h]
  rfl

/-- The left weights' window is the whole matrix at every point. -/
theorem whole2 (c : Dev nD) (t : Fin cfg1.N) (y : S128x128.Idx) : iblk1 V c 2 t y = V c main_arg6 y := by
  obtain ⟨-, -, -, -, a0, a1, -⟩ := idx_facts t
  unfold iblk1
  rw [View.read_apply]
  refine congrArg (V c main_arg6) (funext fun a => Fin.ext ?_)
  match a with
  | ⟨0, _⟩ => show win1_2.index t (0 : Fin 2) * 128 + 1 * (y 0).val = (y 0).val; rw [a0]; omega
  | ⟨1, _⟩ => show win1_2.index t (1 : Fin 2) * 128 + 1 * (y 1).val = (y 1).val; rw [a1]; omega

/-- The bias's window is the whole bias at every point. -/
theorem whole3 (c : Dev nD) (t : Fin cfg1.N) (y : S128.Idx) : iblk1 V c 3 t y = V c main_arg7 y := by
  obtain ⟨-, -, -, -, -, -, a0, -⟩ := idx_facts t
  unfold iblk1
  rw [View.read_apply]
  refine congrArg (V c main_arg7) (funext fun a => Fin.ext ?_)
  match a with
  | ⟨0, _⟩ => show win1_3.index t (0 : Fin 1) * 128 + 1 * (y 0).val = (y 0).val; rw [a0]; omega

/-- The right weights' window is the whole matrix at every point. -/
theorem whole4 (c : Dev nD) (t : Fin cfg1.N) (y : S128x128.Idx) : iblk1 V c 4 t y = V c main_arg8 y := by
  obtain ⟨-, -, -, -, -, -, -, a0, a1, -⟩ := idx_facts t
  unfold iblk1
  rw [View.read_apply]
  refine congrArg (V c main_arg8) (funext fun a => Fin.ext ?_)
  match a with
  | ⟨0, _⟩ => show win1_4.index t (0 : Fin 2) * 128 + 1 * (y 0).val = (y 0).val; rw [a0]; omega
  | ⟨1, _⟩ => show win1_4.index t (1 : Fin 2) * 128 + 1 * (y 1).val = (y 1).val; rw [a1]; omega

/-! ## What a point writes back, the cover, and the array -/

/-- What grid point `t` writes back is its 5000 rows of `out`. -/
theorem flushed_eq (c : Dev nD) (t : Fin cfg1.N) :
    (dat1 V c).flushed 5 t = ((cfg1.win 5).blk t).view.read (Elt Ideal) (out V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S128) hz1]
  rw [funext (whole2 V c t), funext (whole3 V c t), funext (whole4 V c t)]
  funext j
  obtain ⟨p, q, rfl⟩ : ∃ (p : Fin 5000) (q : Fin 128), j = ix2 p q := ⟨j 0, j 1, eq_ix2 j⟩
  obtain ⟨-, -, -, -, -, -, -, -, -, -, -, ht⟩ := idx_facts t
  have hp : t.val * 5000 + p.val < 100000 := by have := p.isLt; omega
  show k1_pay1 (iblk1 V c 0 t) (iblk1 V c 1 t) (V c main_arg6) (V c main_arg8) (V c main_arg7) (ix2 p q)
      = out V c (((cfg1.win 5).blk t).view.emb (ix2 p q))
  rw [emb5 t p q hp]
  refine (pay1_apply (iblk1 V c 0 t) (iblk1 V c 1 t) (V c main_arg6) (V c main_arg8) (V c main_arg7) (V c main_v38) (V c main_v25)
    p ⟨_, hp⟩ q (fun e => rows0 V c t p e hp) (fun e => rows1 V c t p e hp)).trans ?_
  unfold out
  rw [Sage.relu_apply, Sage.lin_apply]

/-- An index of the output array is in point `t`'s block iff each coordinate is in the block's range. -/
theorem mem_blk (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v39).slice (win1_5.rect t)).set ↔ _
  rw [View.set_slice_whole, Rect.mem_set_unit]
  exact Iff.rfl

/-- Every row of the output array lies in some point's block: row `r` in block `r / 5000`. -/
theorem cover (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  obtain ⟨t, htv⟩ : ∃ t : Fin cfg1.N, t.val = (i 0).val / 5000 :=
    ⟨⟨(i 0).val / 5000, by show _ < grid1.N; rw [N_1]; omega⟩, rfl⟩
  obtain ⟨-, -, -, -, -, -, -, -, -, e0, e1, -⟩ := idx_facts t
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; rw [e0, htv]; omega
  | ⟨1, _⟩ => show win1_5.index t (1 : Fin 2) * 128 ≤ (i 1).val ∧ (i 1).val < win1_5.index t (1 : Fin 2) * 128 + 128; rw [e1]; omega

/-- The region's output array after its run. -/
theorem final (c : Dev nD) : (dat1 V c).arrAt 5 cfg1.N = out V c :=
  (dat1 V c).arrAt_eq_of_cover 5 (out V c) (fun t _ => flushed_eq V c t) cover

end Cert.KernelIdeal.Conv1

end
-- ==== Proof.Conv2.lean ====
/-
  The third convolution's kernel, over its whole grid.

  Its 20 grid points each take 5000 consecutive rows of the neighbour means and of the node features, the two 128 x 128
  weight matrices and the bias whole, and write 5000 rows of the result.  Block row p of grid point t is row 5000 t + p of
  the tall matrices, so what point t writes back is rows 5000 t ... 5000 t + 4999 of ONE 100000 x 128 array: the dense
  part of the convolution of the arrays the region finds (this one is not clamped).  The 20 blocks tile the 100000 rows (row r lies
  in block r / 5000), so the region's output array ends as that array.
-/
import proofs.«117925_j70317204570424_1_alg».proof.Proof.Gen.KernelIdeal.Frame
import proofs.«117925_j70317204570424_1_alg».proof.Proof.Tile
import proofs.«117925_j70317204570424_1_alg».proof.Proof.Spec
import Idealize.ShloMosaic.Lib.Pipeline.Value

set_option maxRecDepth 16384

noncomputable section

namespace Cert.KernelIdeal.Conv2

open Cert.KernelIdeal Cert.KernelIdeal.Gen Cert.KernelIdeal.Tile
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a <;> rfl

/-- The printed index maps over the 20 grid points: the three row-blocked windows sit at block row `t`, the weights and
    the bias at block 0. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 2) = t.val ∧ win2_5.index t (1 : Fin 2) = 0 ∧ t.val < 20 :=
  (by decide +kernel : ∀ t : Fin grid2.N, _)

/-- What the region leaves in its output array: the dense part of the convolution of the arrays it finds. -/
def out (c : Dev nD) : Sage.Nodes :=
  Sage.lin (V c main_v52) (V c main_v39) (V c main_arg9) (V c main_arg10) (V c main_arg11)

/-! ## Where a block's entries sit in the arrays -/

theorem emb0 (t : Fin cfg2.N) (p : Fin 5000) (e : Fin 128) (h : t.val * 5000 + p.val < 100000) :
    ((cfg2.win 0).blk t).view.emb (ix2 p e) = ix2 (⟨t.val * 5000 + p.val, h⟩ : Fin 100000) e := by
  obtain ⟨a0, a1, -⟩ := idx_facts t
  funext a; apply Fin.ext
  match a with
  | ⟨0, _⟩ => show win2_0.index t (0 : Fin 2) * 5000 + 1 * p.val = t.val * 5000 + p.val; rw [a0]; omega
  | ⟨1, _⟩ => show win2_0.index t (1 : Fin 2) * 128 + 1 * e.val = e.val; rw [a1]; omega

theorem emb1 (t : Fin cfg2.N) (p : Fin 5000) (e : Fin 128) (h : t.val * 5000 + p.val < 100000) :
    ((cfg2.win 1).blk t).view.emb (ix2 p e) = ix2 (⟨t.val * 5000 + p.val, h⟩ : Fin 100000) e := by
  obtain ⟨-, -, a0, a1, -⟩ := idx_facts t
  funext a; apply Fin.ext
  match a with
  | ⟨0, _⟩ => show win2_1.index t (0 : Fin 2) * 5000 + 1 * p.val = t.val * 5000 + p.val; rw [a0]; omega
  | ⟨1, _⟩ => show win2_1.index t (1 : Fin 2) * 128 + 1 * e.val = e.val; rw [a1]; omega

theorem emb5 (t : Fin cfg2.N) (p : Fin 5000) (e : Fin 128) (h : t.val * 5000 + p.val < 100000) :
    ((cfg2.win 5).blk t).view.emb (ix2 p e) = ix2 (⟨t.val * 5000 + p.val, h⟩ : Fin 100000) e := by
  obtain ⟨-, -, -, -, -, -, -, -, -, a0, a1, -⟩ := idx_facts t
  funext a; apply Fin.ext
  match a with
  | ⟨0, _⟩ => show win2_5.index t (0 : Fin 2) * 5000 + 1 * p.val = t.val * 5000 + p.val; rw [a0]; omega
  | ⟨1, _⟩ => show win2_5.index t (1 : Fin 2) * 128 + 1 * e.val = e.val; rw [a1]; omega

/-- Block row `p` of the means' window at point `t` is row `5000 t + p` of the means. -/
theorem rows0 (c : Dev nD) (t : Fin cfg2.N) (p : Fin 5000) (e : Fin 128) (h : t.val * 5000 + p.val < 100000) :
    iblk2 V c 0 t (ix2 p e) = V c main_v52 (ix2 (⟨t.val * 5000 + p.val, h⟩ : Fin 100000) e) := by
  unfold iblk2
  rw [View.read_apply, emb0 t p e h]
  rfl

/-- Block row `p` of the features' window at point `t` is row `5000 t + p` of the features. -/
theorem rows1 (c : Dev nD) (t : Fin cfg2.N) (p : Fin 5000) (e : Fin 128) (h : t.val * 5000 + p.val < 100000) :
    iblk2 V c 1 t (ix2 p e) = V c main_v39 (ix2 (⟨t.val * 5000 + p.val, h⟩ : Fin 100000) e) := by
  unfold iblk2
  rw [View.read_apply, emb1 t p e h]
  rfl

/-- The left weights' window is the whole matrix at every point. -/
theorem whole2 (c : Dev nD) (t : Fin cfg2.N) (y : S128x128.Idx) : iblk2 V c 2 t y = V c main_arg9 y := by
  obtain ⟨-, -, -, -, a0, a1, -⟩ := idx_facts t
  unfold iblk2
  rw [View.read_apply]
  refine congrArg (V c main_arg9) (funext fun a => Fin.ext ?_)
  match a with
  | ⟨0, _⟩ => show win2_2.index t (0 : Fin 2) * 128 + 1 * (y 0).val = (y 0).val; rw [a0]; omega
  | ⟨1, _⟩ => show win2_2.index t (1 : Fin 2) * 128 + 1 * (y 1).val = (y 1).val; rw [a1]; omega

/-- The bias's window is the whole bias at every point. -/
theorem whole3 (c : Dev nD) (t : Fin cfg2.N) (y : S128.Idx) : iblk2 V c 3 t y = V c main_arg10 y := by
  obtain ⟨-, -, -, -, -, -, a0, -⟩ := idx_facts t
  unfold iblk2
  rw [View.read_apply]
  refine congrArg (V c main_arg10) (funext fun a => Fin.ext ?_)
  match a with
  | ⟨0, _⟩ => show win2_3.index t (0 : Fin 1) * 128 + 1 * (y 0).val = (y 0).val; rw [a0]; omega

/-- The right weights' window is the whole matrix at every point. -/
theorem whole4 (c : Dev nD) (t : Fin cfg2.N) (y : S128x128.Idx) : iblk2 V c 4 t y = V c main_arg11 y := by
  obtain ⟨-, -, -, -, -, -, -, a0, a1, -⟩ := idx_facts t
  unfold iblk2
  rw [View.read_apply]
  refine congrArg (V c main_arg11) (funext fun a => Fin.ext ?_)
  match a with
  | ⟨0, _⟩ => show win2_4.index t (0 : Fin 2) * 128 + 1 * (y 0).val = (y 0).val; rw [a0]; omega
  | ⟨1, _⟩ => show win2_4.index t (1 : Fin 2) * 128 + 1 * (y 1).val = (y 1).val; rw [a1]; omega

/-! ## What a point writes back, the cover, and the array -/

/-- What grid point `t` writes back is its 5000 rows of `out`. -/
theorem flushed_eq (c : Dev nD) (t : Fin cfg2.N) :
    (dat2 V c).flushed 5 t = ((cfg2.win 5).blk t).view.read (Elt Ideal) (out V c) := by
  show (cfg2.win 5).cut (grid2.coords t) ((dat2 V c).after 5 t) = _
  rw [after2_5]
  unfold out2_5
  rw [View.canon_unit_zero hz]
  simp only [View.ld_unit_zero (S := S5000x128) hz, View.ld_unit_zero (S := S128x128) hz, View.ld_unit_zero (S := S128) hz1]
  rw [funext (whole2 V c t), funext (whole3 V c t), funext (whole4 V c t)]
  funext j
  obtain ⟨p, q, rfl⟩ : ∃ (p : Fin 5000) (q : Fin 128), j = ix2 p q := ⟨j 0, j 1, eq_ix2 j⟩
  obtain ⟨-, -, -, -, -, -, -, -, -, -, -, ht⟩ := idx_facts t
  have hp : t.val * 5000 + p.val < 100000 := by have := p.isLt; omega
  show k2_pay1 (iblk2 V c 0 t) (iblk2 V c 1 t) (V c main_arg9) (V c main_arg11) (V c main_arg10) (ix2 p q)
      = out V c (((cfg2.win 5).blk t).view.emb (ix2 p q))
  rw [emb5 t p q hp]
  refine (pay2_apply (iblk2 V c 0 t) (iblk2 V c 1 t) (V c main_arg9) (V c main_arg11) (V c main_arg10) (V c main_v52) (V c main_v39)
    p ⟨_, hp⟩ q (fun e => rows0 V c t p e hp) (fun e => rows1 V c t p e hp)).trans ?_
  unfold out
  rw [Sage.lin_apply]

/-- An index of the output array is in point `t`'s block iff each coordinate is in the block's range. -/
theorem mem_blk (t : Fin cfg2.N) (i : S100000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v53).slice (win2_5.rect t)).set ↔ _
  rw [View.set_slice_whole, Rect.mem_set_unit]
  exact Iff.rfl

/-- Every row of the output array lies in some point's block: row `r` in block `r / 5000`. -/
theorem cover (i : S100000x128.Idx) : ∃ t : Fin cfg2.N, (cfg2.win 5).flush t = true ∧ i ∈ ((cfg2.win 5).blk t).view.set := by
  have hi0 : (i 0).val < 100000 := (i 0).isLt
  have hi1 : (i 1).val < 128 := (i 1).isLt
  obtain ⟨t, htv⟩ : ∃ t : Fin cfg2.N, t.val = (i 0).val / 5000 :=
    ⟨⟨(i 0).val / 5000, by show _ < grid2.N; rw [N_2]; omega⟩, rfl⟩
  obtain ⟨-, -, -, -, -, -, -, -, -, e0, e1, -⟩ := idx_facts t
  refine ⟨t, flush2_5 t, ?_⟩
  rw [mem_blk]
  intro a
  match a with
  | ⟨0, _⟩ => show win2_5.index t (0 : Fin 2) * 5000 ≤ (i 0).val ∧ (i 0).val < win2_5.index t (0 : Fin 2) * 5000 + 5000; rw [e0, htv]; omega
  | ⟨1, _⟩ => show win2_5.index t (1 : Fin 2) * 128 ≤ (i 1).val ∧ (i 1).val < win2_5.index t (1 : Fin 2) * 128 + 128; rw [e1]; omega

/-- The region's output array after its run. -/
theorem final (c : Dev nD) : (dat2 V c).arrAt 5 cfg2.N = out V c :=
  (dat2 V c).arrAt_eq_of_cover 5 (out V c) (fun t _ => flushed_eq V c t) cover

end Cert.KernelIdeal.Conv2

end
-- ==== Proof.Head.lean ====
/-
  The last kernel: one grid point holding the 64 pooled rows, the 128 x 10 matrix and the 10-long bias whole, storing
  their product plus the bias.  Its one block is its whole output array, so the array ends as the last product of the
  arrays the region finds.
-/
import proofs.«117925_j70317204570424_1_alg».proof.Proof.Gen.KernelIdeal.Frame
import proofs.«117925_j70317204570424_1_alg».proof.Proof.Tile
import proofs.«117925_j70317204570424_1_alg».proof.Proof.Spec
import Idealize.ShloMosaic.Lib.Pipeline.Value

set_option maxRecDepth 16384

noncomputable section

namespace Cert.KernelIdeal.Head

open Cert.KernelIdeal Cert.KernelIdeal.Gen Cert.KernelIdeal.Tile
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a <;> rfl

/-- Every window sits at block 0 at the one grid point. -/
theorem idx_facts : ∀ t : Fin cfg3.N,
    win3_0.index t (0 : Fin 2) = 0 ∧ win3_0.index t (1 : Fin 2) = 0
    ∧ win3_1.index t (0 : Fin 2) = 0 ∧ win3_1.index t (1 : Fin 2) = 0
    ∧ win3_2.index t (0 : Fin 1) = 0
    ∧ win3_3.index t (0 : Fin 2) = 0 ∧ win3_3.index t (1 : Fin 2) = 0 :=
  (by decide +kernel : ∀ t : Fin grid3.N, _)

/-- What the region leaves in its output array. -/
def out (c : Dev nD) : Sage.Logits := Sage.head (V c main_v65) (V c main_arg12) (V c main_arg13)

theorem whole0 (c : Dev nD) (t : Fin cfg3.N) (y : S64x128.Idx) : iblk3 V c 0 t y = V c main_v65 y := by
  obtain ⟨a0, a1, -⟩ := idx_facts t
  unfold iblk3
  rw [View.read_apply]
  refine congrArg (V c main_v65) (funext fun a => Fin.ext ?_)
  match a with
  | ⟨0, _⟩ => show win3_0.index t (0 : Fin 2) * 64 + 1 * (y 0).val = (y 0).val; rw [a0]; omega
  | ⟨1, _⟩ => show win3_0.index t (1 : Fin 2) * 128 + 1 * (y 1).val = (y 1).val; rw [a1]; omega

theorem whole1 (c : Dev nD) (t : Fin cfg3.N) (y : S128x10.Idx) : iblk3 V c 1 t y = V c main_arg12 y := by
  obtain ⟨-, -, a0, a1, -⟩ := idx_facts t
  unfold iblk3
  rw [View.read_apply]
  refine congrArg (V c main_arg12) (funext fun a => Fin.ext ?_)
  match a with
  | ⟨0, _⟩ => show win3_1.index t (0 : Fin 2) * 128 + 1 * (y 0).val = (y 0).val; rw [a0]; omega
  | ⟨1, _⟩ => show win3_1.index t (1 : Fin 2) * 10 + 1 * (y 1).val = (y 1).val; rw [a1]; omega

theorem whole2 (c : Dev nD) (t : Fin cfg3.N) (y : S10.Idx) : iblk3 V c 2 t y = V c main_arg13 y := by
  obtain ⟨-, -, -, -, a0, -⟩ := idx_facts t
  unfold iblk3
  rw [View.read_apply]
  refine congrArg (V c main_arg13) (funext fun a => Fin.ext ?_)
  match a with
  | ⟨0, _⟩ => show win3_2.index t (0 : Fin 1) * 10 + 1 * (y 0).val = (y 0).val; rw [a0]; omega

theorem emb3 (t : Fin cfg3.N) (p : Fin 64) (q : Fin 10) : ((cfg3.win 3).blk t).view.emb (ix2 p q) = ix2 p q := by
  obtain ⟨-, -, -, -, -, a0, a1⟩ := idx_facts t
  funext a; apply Fin.ext
  match a with
  | ⟨0, _⟩ => show win3_3.index t (0 : Fin 2) * 64 + 1 * p.val = p.val; rw [a0]; omega
  | ⟨1, _⟩ => show win3_3.index t (1 : Fin 2) * 10 + 1 * q.val = q.val; rw [a1]; omega

/-- What the one grid point writes back is all of `out`. -/
theorem flushed_eq (c : Dev nD) (t : Fin cfg3.N) :
    (dat3 V c).flushed 3 t = ((cfg3.win 3).blk t).view.read (Elt Ideal) (out V c) := by
  show (cfg3.win 3).cut (grid3.coords t) ((dat3 V c).after 3 t) = _
  rw [after3_3]
  unfold out3_3
  rw [View.canon_unit_zero hz]
  simp only [View.ld_unit_zero (S := S64x128) hz, View.ld_unit_zero (S := S128x10) hz, View.ld_unit_zero (S := S10) hz1]
  rw [funext (whole0 V c t), funext (whole1 V c t), funext (whole2 V c t)]
  funext j
  obtain ⟨p, q, rfl⟩ : ∃ (p : Fin 64) (q : Fin 10), j = ix2 p q := ⟨j 0, j 1, eq_ix2 j⟩
  show k3_pay1 (V c main_v65) (V c main_arg12) (V c main_arg13) (ix2 p q) = out V c (((cfg3.win 3).blk t).view.emb (ix2 p q))
  rw [emb3 t p q]
  refine (pay3_apply (V c main_v65) (V c main_arg12) (V c main_arg13) p q).trans ?_
  unfold out
  rw [Sage.head_apply]

theorem mem_blk (t : Fin cfg3.N) (i : S64x10.Idx) :
    i ∈ ((cfg3.win 3).blk t).view.set ↔ ∀ a : Fin 2, win3_3.index t a * S64x10.size a ≤ (i a).val ∧ (i a).val < win3_3.index t a * S64x10.size a + S64x10.size a := by
  show i ∈ ((View.whole main_v66).slice (win3_3.rect t)).set ↔ _
  rw [View.set_slice_whole, Rect.mem_set_unit]
  exact Iff.rfl

/-- The one block is the whole array. -/
theorem cover (i : S64x10.Idx) : ∃ t : Fin cfg3.N, (cfg3.win 3).flush t = true ∧ i ∈ ((cfg3.win 3).blk t).view.set := by
  have hi0 : (i 0).val < 64 := (i 0).isLt
  have hi1 : (i 1).val < 10 := (i 1).isLt
  obtain ⟨-, -, -, -, -, e0, e1⟩ := idx_facts t3_0
  refine ⟨t3_0, flush3_3 t3_0, ?_⟩
  rw [mem_blk]
  intro a
  match a with
  | ⟨0, _⟩ => show win3_3.index t3_0 (0 : Fin 2) * 64 ≤ (i 0).val ∧ (i 0).val < win3_3.index t3_0 (0 : Fin 2) * 64 + 64; rw [e0]; omega
  | ⟨1, _⟩ => show win3_3.index t3_0 (1 : Fin 2) * 10 ≤ (i 1).val ∧ (i 1).val < win3_3.index t3_0 (1 : Fin 2) * 10 + 10; rw [e1]; omega

/-- The region's output array after its run. -/
theorem final (c : Dev nD) : (dat3 V c).arrAt 3 cfg3.N = out V c :=
  (dat3 V c).arrAt_eq_of_cover 3 (out V c) (fun t _ => flushed_eq V c t) cover

end Cert.KernelIdeal.Head

end
-- ==== Proof.Kept.lean ====
/-
  Buffers that a stretch of host operations or a kernel region does not write hold at its end what they held at its start.
  Each host operation writes only its own result buffer and each region only its output array, so the fourteen arguments
  stay as launched, and the edge rows, the reciprocal degree and a layer's output stay as computed, through everything
  that follows.  One hop per stretch (no operation of the stretch writes the buffer) or per region (the buffer is not one
  of the region's arrays).
-/
import proofs.«117925_j70317204570424_1_alg».proof.Proof.Gen.KernelIdeal.Frame

set_option maxRecDepth 16384

noncomputable section

namespace Cert.KernelIdeal.Kept

open Cert.KernelIdeal Cert.KernelIdeal.Gen
open Idealize.ShloMosaic Idealize.ShloMosaic.TcCoe Idealize.SL.Sem

/-- No operation of the named stretch writes the buffer: it is at the stretch's end what it was at its start. -/
macro "not_written " ops:ident : tactic => `(tactic| (
  refine StableHlo.after_of_forall_not_mem _ _ (List.forall_iff_forall_mem.mp ?_)
  simp only [$ops:ident, List.flatten_cons, List.flatten_nil, List.append_nil, List.cons_append, List.nil_append, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

variable {F : FTy → Type} [FloatOps F]
variable (m : (ℓ : Loc nD τ sig) → Buf (Elt F) ℓ) (ρ : Dev nD → PrngReg)

/-- Argument 0 is still as launched at boundary 1. -/
theorem at1_arg0 (c : Dev nD) : W1 m ρ c (Proc.devRef .tc main_arg0) = m ((c : Thread nD τ).loc main_arg0) :=
  calc W1 m ρ c (Proc.devRef .tc main_arg0)
    _ = W0 m ρ c (Proc.devRef .tc main_arg0) := by not_written hostOps0
    _ = m ((c : Thread nD τ).loc main_arg0) := rfl

/-- Argument 2 is still as launched at boundary 6. -/
theorem at6_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := by not_written hostOps2
    _ = W3 m ρ c (Proc.devRef .tc main_arg2) := W4_of_ne m ρ c main_arg2 (by decide)
    _ = W2 m ρ c (Proc.devRef .tc main_arg2) := by not_written hostOps1
    _ = W1 m ρ c (Proc.devRef .tc main_arg2) := W2_of_ne m ρ c main_arg2 (by decide)
    _ = W0 m ρ c (Proc.devRef .tc main_arg2) := by not_written hostOps0
    _ = m ((c : Thread nD τ).loc main_arg2) := rfl

/-- Argument 3 is still as launched at boundary 1. -/
theorem at1_arg3 (c : Dev nD) : W1 m ρ c (Proc.devRef .tc main_arg3) = m ((c : Thread nD τ).loc main_arg3) :=
  calc W1 m ρ c (Proc.devRef .tc main_arg3)
    _ = W0 m ρ c (Proc.devRef .tc main_arg3) := by not_written hostOps0
    _ = m ((c : Thread nD τ).loc main_arg3) := rfl

/-- Argument 4 is still as launched at boundary 1. -/
theorem at1_arg4 (c : Dev nD) : W1 m ρ c (Proc.devRef .tc main_arg4) = m ((c : Thread nD τ).loc main_arg4) :=
  calc W1 m ρ c (Proc.devRef .tc main_arg4)
    _ = W0 m ρ c (Proc.devRef .tc main_arg4) := by not_written hostOps0
    _ = m ((c : Thread nD τ).loc main_arg4) := rfl

/-- Argument 5 is still as launched at boundary 1. -/
theorem at1_arg5 (c : Dev nD) : W1 m ρ c (Proc.devRef .tc main_arg5) = m ((c : Thread nD τ).loc main_arg5) :=
  calc W1 m ρ c (Proc.devRef .tc main_arg5)
    _ = W0 m ρ c (Proc.devRef .tc main_arg5) := by not_written hostOps0
    _ = m ((c : Thread nD τ).loc main_arg5) := rfl

/-- Argument 6 is still as launched at boundary 3. -/
theorem at3_arg6 (c : Dev nD) : W3 m ρ c (Proc.devRef .tc main_arg6) = m ((c : Thread nD τ).loc main_arg6) :=
  calc W3 m ρ c (Proc.devRef .tc main_arg6)
    _ = W2 m ρ c (Proc.devRef .tc main_arg6) := by not_written hostOps1
    _ = W1 m ρ c (Proc.devRef .tc main_arg6) := W2_of_ne m ρ c main_arg6 (by decide)
    _ = W0 m ρ c (Proc.devRef .tc main_arg6) := by not_written hostOps0
    _ = m ((c : Thread nD τ).loc main_arg6) := rfl

/-- Argument 7 is still as launched at boundary 3. -/
theorem at3_arg7 (c : Dev nD) : W3 m ρ c (Proc.devRef .tc main_arg7) = m ((c : Thread nD τ).loc main_arg7) :=
  calc W3 m ρ c (Proc.devRef .tc main_arg7)
    _ = W2 m ρ c (Proc.devRef .tc main_arg7) := by not_written hostOps1
    _ = W1 m ρ c (Proc.devRef .tc main_arg7) := W2_of_ne m ρ c main_arg7 (by decide)
    _ = W0 m ρ c (Proc.devRef .tc main_arg7) := by not_written hostOps0
    _ = m ((c : Thread nD τ).loc main_arg7) := rfl

/-- Argument 8 is still as launched at boundary 3. -/
theorem at3_arg8 (c : Dev nD) : W3 m ρ c (Proc.devRef .tc main_arg8) = m ((c : Thread nD τ).loc main_arg8) :=
  calc W3 m ρ c (Proc.devRef .tc main_arg8)
    _ = W2 m ρ c (Proc.devRef .tc main_arg8) := by not_written hostOps1
    _ = W1 m ρ c (Proc.devRef .tc main_arg8) := W2_of_ne m ρ c main_arg8 (by decide)
    _ = W0 m ρ c (Proc.devRef .tc main_arg8) := by not_written hostOps0
    _ = m ((c : Thread nD τ).loc main_arg8) := rfl

/-- Argument 9 is still as launched at boundary 5. -/
theorem at5_arg9 (c : Dev nD) : W5 m ρ c (Proc.devRef .tc main_arg9) = m ((c : Thread nD τ).loc main_arg9) :=
  calc W5 m ρ c (Proc.devRef .tc main_arg9)
    _ = W4 m ρ c (Proc.devRef .tc main_arg9) := by not_written hostOps2
    _ = W3 m ρ c (Proc.devRef .tc main_arg9) := W4_of_ne m ρ c main_arg9 (by decide)
    _ = W2 m ρ c (Proc.devRef .tc main_arg9) := by not_written hostOps1
    _ = W1 m ρ c (Proc.devRef .tc main_arg9) := W2_of_ne m ρ c main_arg9 (by decide)
    _ = W0 m ρ c (Proc.devRef .tc main_arg9) := by not_written hostOps0
    _ = m ((c : Thread nD τ).loc main_arg9) := rfl

/-- Argument 10 is still as launched at boundary 5. -/
theorem at5_arg10 (c : Dev nD) : W5 m ρ c (Proc.devRef .tc main_arg10) = m ((c : Thread nD τ).loc main_arg10) :=
  calc W5 m ρ c (Proc.devRef .tc main_arg10)
    _ = W4 m ρ c (Proc.devRef .tc main_arg10) := by not_written hostOps2
    _ = W3 m ρ c (Proc.devRef .tc main_arg10) := W4_of_ne m ρ c main_arg10 (by decide)
    _ = W2 m ρ c (Proc.devRef .tc main_arg10) := by not_written hostOps1
    _ = W1 m ρ c (Proc.devRef .tc main_arg10) := W2_of_ne m ρ c main_arg10 (by decide)
    _ = W0 m ρ c (Proc.devRef .tc main_arg10) := by not_written hostOps0
    _ = m ((c : Thread nD τ).loc main_arg10) := rfl

/-- Argument 11 is still as launched at boundary 5. -/
theorem at5_arg11 (c : Dev nD) : W5 m ρ c (Proc.devRef .tc main_arg11) = m ((c : Thread nD τ).loc main_arg11) :=
  calc W5 m ρ c (Proc.devRef .tc main_arg11)
    _ = W4 m ρ c (Proc.devRef .tc main_arg11) := by not_written hostOps2
    _ = W3 m ρ c (Proc.devRef .tc main_arg11) := W4_of_ne m ρ c main_arg11 (by decide)
    _ = W2 m ρ c (Proc.devRef .tc main_arg11) := by not_written hostOps1
    _ = W1 m ρ c (Proc.devRef .tc main_arg11) := W2_of_ne m ρ c main_arg11 (by decide)
    _ = W0 m ρ c (Proc.devRef .tc main_arg11) := by not_written hostOps0
    _ = m ((c : Thread nD τ).loc main_arg11) := rfl

/-- Argument 12 is still as launched at boundary 7. -/
theorem at7_arg12 (c : Dev nD) : W7 m ρ c (Proc.devRef .tc main_arg12) = m ((c : Thread nD τ).loc main_arg12) :=
  calc W7 m ρ c (Proc.devRef .tc main_arg12)
    _ = W6 m ρ c (Proc.devRef .tc main_arg12) := by not_written hostOps3
    _ = W5 m ρ c (Proc.devRef .tc main_arg12) := W6_of_ne m ρ c main_arg12 (by decide)
    _ = W4 m ρ c (Proc.devRef .tc main_arg12) := by not_written hostOps2
    _ = W3 m ρ c (Proc.devRef .tc main_arg12) := W4_of_ne m ρ c main_arg12 (by decide)
    _ = W2 m ρ c (Proc.devRef .tc main_arg12) := by not_written hostOps1
    _ = W1 m ρ c (Proc.devRef .tc main_arg12) := W2_of_ne m ρ c main_arg12 (by decide)
    _ = W0 m ρ c (Proc.devRef .tc main_arg12) := by not_written hostOps0
    _ = m ((c : Thread nD τ).loc main_arg12) := rfl

/-- Argument 13 is still as launched at boundary 7. -/
theorem at7_arg13 (c : Dev nD) : W7 m ρ c (Proc.devRef .tc main_arg13) = m ((c : Thread nD τ).loc main_arg13) :=
  calc W7 m ρ c (Proc.devRef .tc main_arg13)
    _ = W6 m ρ c (Proc.devRef .tc main_arg13) := by not_written hostOps3
    _ = W5 m ρ c (Proc.devRef .tc main_arg13) := W6_of_ne m ρ c main_arg13 (by decide)
    _ = W4 m ρ c (Proc.devRef .tc main_arg13) := by not_written hostOps2
    _ = W3 m ρ c (Proc.devRef .tc main_arg13) := W4_of_ne m ρ c main_arg13 (by decide)
    _ = W2 m ρ c (Proc.devRef .tc main_arg13) := by not_written hostOps1
    _ = W1 m ρ c (Proc.devRef .tc main_arg13) := W2_of_ne m ρ c main_arg13 (by decide)
    _ = W0 m ρ c (Proc.devRef .tc main_arg13) := by not_written hostOps0
    _ = m ((c : Thread nD τ).loc main_arg13) := rfl

/-- `main_v1` (computed by the first stretch) is unchanged by the first region. -/
theorem at2_v1 (c : Dev nD) : W2 m ρ c (Proc.devRef .tc main_v1) = W1 m ρ c (Proc.devRef .tc main_v1) :=
  calc W2 m ρ c (Proc.devRef .tc main_v1)
    _ = W1 m ρ c (Proc.devRef .tc main_v1) := W2_of_ne m ρ c main_v1 (by decide)

/-- `main_v1` is unchanged up to the second region's exit. -/
theorem at4_v1 (c : Dev nD) : W4 m ρ c (Proc.devRef .tc main_v1) = W1 m ρ c (Proc.devRef .tc main_v1) :=
  calc W4 m ρ c (Proc.devRef .tc main_v1)
    _ = W3 m ρ c (Proc.devRef .tc main_v1) := W4_of_ne m ρ c main_v1 (by decide)
    _ = W2 m ρ c (Proc.devRef .tc main_v1) := by not_written hostOps1
    _ = W1 m ρ c (Proc.devRef .tc main_v1) := W2_of_ne m ρ c main_v1 (by decide)

/-- `main_v3` (computed by the first stretch) is unchanged by the first region. -/
theorem at2_v3 (c : Dev nD) : W2 m ρ c (Proc.devRef .tc main_v3) = W1 m ρ c (Proc.devRef .tc main_v3) :=
  calc W2 m ρ c (Proc.devRef .tc main_v3)
    _ = W1 m ρ c (Proc.devRef .tc main_v3) := W2_of_ne m ρ c main_v3 (by decide)

/-- `main_v3` is unchanged up to the second region's exit. -/
theorem at4_v3 (c : Dev nD) : W4 m ρ c (Proc.devRef .tc main_v3) = W1 m ρ c (Proc.devRef .tc main_v3) :=
  calc W4 m ρ c (Proc.devRef .tc main_v3)
    _ = W3 m ρ c (Proc.devRef .tc main_v3) := W4_of_ne m ρ c main_v3 (by decide)
    _ = W2 m ρ c (Proc.devRef .tc main_v3) := by not_written hostOps1
    _ = W1 m ρ c (Proc.devRef .tc main_v3) := W2_of_ne m ρ c main_v3 (by decide)

/-- `main_v11` (computed by the first stretch) is unchanged by the first region. -/
theorem at2_v11 (c : Dev nD) : W2 m ρ c (Proc.devRef .tc main_v11) = W1 m ρ c (Proc.devRef .tc main_v11) :=
  calc W2 m ρ c (Proc.devRef .tc main_v11)
    _ = W1 m ρ c (Proc.devRef .tc main_v11) := W2_of_ne m ρ c main_v11 (by decide)

/-- `main_v11` is unchanged up to the second region's exit. -/
theorem at4_v11 (c : Dev nD) : W4 m ρ c (Proc.devRef .tc main_v11) = W1 m ρ c (Proc.devRef .tc main_v11) :=
  calc W4 m ρ c (Proc.devRef .tc main_v11)
    _ = W3 m ρ c (Proc.devRef .tc main_v11) := W4_of_ne m ρ c main_v11 (by decide)
    _ = W2 m ρ c (Proc.devRef .tc main_v11) := by not_written hostOps1
    _ = W1 m ρ c (Proc.devRef .tc main_v11) := W2_of_ne m ρ c main_v11 (by decide)

/-- The first layer's output is unchanged by the second stretch. -/
theorem at3_v25 (c : Dev nD) : W3 m ρ c (Proc.devRef .tc main_v25) = W2 m ρ c (Proc.devRef .tc main_v25) :=
  calc W3 m ρ c (Proc.devRef .tc main_v25)
    _ = W2 m ρ c (Proc.devRef .tc main_v25) := by not_written hostOps1

/-- The second layer's output is unchanged by the third stretch. -/
theorem at5_v39 (c : Dev nD) : W5 m ρ c (Proc.devRef .tc main_v39) = W4 m ρ c (Proc.devRef .tc main_v39) :=
  calc W5 m ρ c (Proc.devRef .tc main_v39)
    _ = W4 m ρ c (Proc.devRef .tc main_v39) := by not_written hostOps2

end Cert.KernelIdeal.Kept

end
-- ==== Proof.Stretch0.lean ====
/-
  The first stretch of host operations, read back: from the launch memory it computes the two edge rows, the reciprocal
  of the clamped in-degree, and the first convolution's neighbour means (the neighbour sums of the node features times
  the reciprocal degree spread over the features).
-/
import proofs.«117925_j70317204570424_1_alg».proof.Proof.Gen.KernelIdeal.Frame
import proofs.«117925_j70317204570424_1_alg».proof.Proof.Spec
import Idealize.ShloMosaic.Lib.StableHlo.Run

set_option maxRecDepth 16384

noncomputable section

namespace Cert.KernelIdeal.Stretch0

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)
set_option maxHeartbeats 20000000 in
/-- The sources' row of the edge array. -/
theorem src (c : Dev nD) : W1 m ρ c (Proc.devRef .tc main_v1)
    = Cert.ReferenceIdeal.Read.val_main_v1 (F := Ideal) (m ((c : Thread nD τ).loc main_arg1)) := by
  show StableHlo.after hostOps0 _ (Proc.devRef .tc main_v1) = _
  after_results
  rfl

set_option maxHeartbeats 20000000 in
/-- The targets' row of the edge array. -/
theorem tgt (c : Dev nD) : W1 m ρ c (Proc.devRef .tc main_v3)
    = Cert.ReferenceIdeal.Read.val_main_v3 (F := Ideal) (m ((c : Thread nD τ).loc main_arg1)) := by
  show StableHlo.after hostOps0 _ (Proc.devRef .tc main_v3) = _
  after_results
  rfl

set_option maxHeartbeats 20000000 in
/-- One over the clamped in-degree. -/
theorem recip (c : Dev nD) : W1 m ρ c (Proc.devRef .tc main_v11)
    = Sage.recipDeg (m ((c : Thread nD τ).loc main_arg1)) := by
  show StableHlo.after hostOps0 _ (Proc.devRef .tc main_v11) = _
  after_results
  rfl

set_option maxHeartbeats 20000000 in
/-- The first convolution's neighbour means, taken with the reciprocal. -/
theorem means (c : Dev nD) : W1 m ρ c (Proc.devRef .tc main_v24)
    = Sage.meanMul (m ((c : Thread nD τ).loc main_arg1)) (Sage.nbrSum (m ((c : Thread nD τ).loc main_arg1)) (m ((c : Thread nD τ).loc main_arg0))) := by
  show StableHlo.after hostOps0 _ (Proc.devRef .tc main_v24) = _
  after_results
  rfl

end Cert.KernelIdeal.Stretch0

end
-- ==== Proof.Stretch1.lean ====
/-
  The second stretch of host operations, read back: from the contents at the first region's exit it computes the second
  convolution's neighbour means, out of the edge rows, the reciprocal degree and the first layer's output found there.
-/
import proofs.«117925_j70317204570424_1_alg».proof.Proof.Gen.KernelIdeal.Frame
import proofs.«117925_j70317204570424_1_alg».proof.Proof.Spec
import Idealize.ShloMosaic.Lib.StableHlo.Run

set_option maxRecDepth 16384

noncomputable section

namespace Cert.KernelIdeal.Stretch1

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)
set_option maxHeartbeats 20000000 in
/-- The second convolution's neighbour means, from what the stretch finds. -/
theorem means (c : Dev nD) : W3 m ρ c (Proc.devRef .tc main_v38)
    = mulf (F := Ideal) (Sage.nbrSumOf (W2 m ρ c (Proc.devRef .tc main_v1)) (W2 m ρ c (Proc.devRef .tc main_v3)) (W2 m ρ c (Proc.devRef .tc main_v25))) (Sage.spread (W2 m ρ c (Proc.devRef .tc main_v11))) := by
  show StableHlo.after hostOps1 _ (Proc.devRef .tc main_v38) = _
  after_results
  rfl

end Cert.KernelIdeal.Stretch1

end
-- ==== Proof.Stretch2.lean ====
/-
  The third stretch of host operations, read back: from the contents at the second region's exit it computes the third
  convolution's neighbour means, out of the edge rows, the reciprocal degree and the second layer's output found there.
-/
import proofs.«117925_j70317204570424_1_alg».proof.Proof.Gen.KernelIdeal.Frame
import proofs.«117925_j70317204570424_1_alg».proof.Proof.Spec
import Idealize.ShloMosaic.Lib.StableHlo.Run

set_option maxRecDepth 16384

noncomputable section

namespace Cert.KernelIdeal.Stretch2

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)
set_option maxHeartbeats 20000000 in
/-- The third convolution's neighbour means, from what the stretch finds. -/
theorem means (c : Dev nD) : W5 m ρ c (Proc.devRef .tc main_v52)
    = mulf (F := Ideal) (Sage.nbrSumOf (W4 m ρ c (Proc.devRef .tc main_v1)) (W4 m ρ c (Proc.devRef .tc main_v3)) (W4 m ρ c (Proc.devRef .tc main_v39))) (Sage.spread (W4 m ρ c (Proc.devRef .tc main_v11))) := by
  show StableHlo.after hostOps2 _ (Proc.devRef .tc main_v52) = _
  after_results
  rfl

end Cert.KernelIdeal.Stretch2

end
-- ==== Proof.Stretch3.lean ====
/-
  The last stretch of host operations, read back: from the contents at the third region's exit it pools the third
  layer's output over the graphs (a sum per graph divided by the clamped count), out of the graph assignment and the
  layer's output found there.
-/
import proofs.«117925_j70317204570424_1_alg».proof.Proof.Gen.KernelIdeal.Frame
import proofs.«117925_j70317204570424_1_alg».proof.Proof.Spec
import Idealize.ShloMosaic.Lib.StableHlo.Run

set_option maxRecDepth 16384

noncomputable section

namespace Cert.KernelIdeal.Stretch3

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)
set_option maxHeartbeats 20000000 in
/-- The pooled rows, from what the stretch finds. -/
theorem pooled (c : Dev nD) : W7 m ρ c (Proc.devRef .tc main_v65)
    = Sage.pool (W6 m ρ c (Proc.devRef .tc main_arg2)) (W6 m ρ c (Proc.devRef .tc main_v53)) := by
  show StableHlo.after hostOps3 _ (Proc.devRef .tc main_v65) = _
  after_results
  rfl

end Cert.KernelIdeal.Stretch3

end
-- ==== Proof.Through.lean ====
/-
  The program's result, followed from the launch memory through its eight segment boundaries.

  Each convolution region's output array is the dense part of the convolution of the arrays the region finds (Conv0,
  Conv1, Conv2); the stretch before it computes the neighbour means it finds, from buffers that nothing in between has
  written (Kept); so layer by layer the output is the network's layer of the arguments.  The means are taken with the
  reciprocal of the clamped degree, which is the quotient by it (Spec), so each layer is the vocabulary's convolution.
  The last stretch pools, and the last region applies the last product: the result buffer ends as the network of the
  fourteen arguments.
-/
import proofs.«117925_j70317204570424_1_alg».proof.Proof.Conv0
import proofs.«117925_j70317204570424_1_alg».proof.Proof.Conv1
import proofs.«117925_j70317204570424_1_alg».proof.Proof.Conv2
import proofs.«117925_j70317204570424_1_alg».proof.Proof.Head
import proofs.«117925_j70317204570424_1_alg».proof.Proof.Kept
import proofs.«117925_j70317204570424_1_alg».proof.Proof.Stretch0
import proofs.«117925_j70317204570424_1_alg».proof.Proof.Stretch1
import proofs.«117925_j70317204570424_1_alg».proof.Proof.Stretch2
import proofs.«117925_j70317204570424_1_alg».proof.Proof.Stretch3

set_option maxRecDepth 16384

noncomputable section

namespace Cert.Sage

open Cert.ReferenceIdeal Cert.ReferenceIdeal.Read Idealize.ShloMosaic

/-- The neighbour means taken with the reciprocal, written over the two edge rows. -/
theorem meanMul_rows (ei : Edges) (h : Nodes) :
    mulf (F := Ideal) (nbrSumOf (val_main_v1 (F := Ideal) ei) (val_main_v3 (F := Ideal) ei) h) (spread (recipDeg ei))
      = meanMul ei (nbrSum ei h) := rfl

end Cert.Sage

namespace Cert.KernelIdeal.Through

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The first layer of the arguments. -/
def h1 (c : Dev nD) : Sage.Nodes := Sage.relu (Sage.conv (m ((c : Thread nD τ).loc main_arg1)) (m ((c : Thread nD τ).loc main_arg0)) (m ((c : Thread nD τ).loc main_arg3)) (m ((c : Thread nD τ).loc main_arg4)) (m ((c : Thread nD τ).loc main_arg5)))
/-- The second layer. -/
def h2 (c : Dev nD) : Sage.Nodes := Sage.relu (Sage.conv (m ((c : Thread nD τ).loc main_arg1)) (h1 m c) (m ((c : Thread nD τ).loc main_arg6)) (m ((c : Thread nD τ).loc main_arg7)) (m ((c : Thread nD τ).loc main_arg8)))
/-- The third layer (not clamped). -/
def h3 (c : Dev nD) : Sage.Nodes := Sage.conv (m ((c : Thread nD τ).loc main_arg1)) (h2 m c) (m ((c : Thread nD τ).loc main_arg9)) (m ((c : Thread nD τ).loc main_arg10)) (m ((c : Thread nD τ).loc main_arg11))

/-- The first region leaves the first layer in its output array. -/
theorem layer1 (c : Dev nD) : W2 m ρ c (Proc.devRef .tc main_v25) = h1 m c := by
  refine (W2_arr m ρ c 5).trans ((Conv0.final (V1 m ρ) c).trans ?_)
  unfold Conv0.out h1 Sage.conv
  show Sage.relu (Sage.lin (W1 m ρ c (Proc.devRef .tc main_v24)) (W1 m ρ c (Proc.devRef .tc main_arg0)) (W1 m ρ c (Proc.devRef .tc main_arg3)) (W1 m ρ c (Proc.devRef .tc main_arg4)) (W1 m ρ c (Proc.devRef .tc main_arg5))) = _
  rw [Stretch0.means m ρ c, Kept.at1_arg0 m ρ c, Kept.at1_arg3 m ρ c, Kept.at1_arg4 m ρ c, Kept.at1_arg5 m ρ c,
    Sage.meanMul_eq_meanDiv]

/-- The second region leaves the second layer in its output array. -/
theorem layer2 (c : Dev nD) : W4 m ρ c (Proc.devRef .tc main_v39) = h2 m c := by
  refine (W4_arr m ρ c 5).trans ((Conv1.final (V3 m ρ) c).trans ?_)
  unfold Conv1.out h2 Sage.conv
  show Sage.relu (Sage.lin (W3 m ρ c (Proc.devRef .tc main_v38)) (W3 m ρ c (Proc.devRef .tc main_v25)) (W3 m ρ c (Proc.devRef .tc main_arg6)) (W3 m ρ c (Proc.devRef .tc main_arg7)) (W3 m ρ c (Proc.devRef .tc main_arg8))) = _
  rw [Stretch1.means m ρ c, Kept.at3_v25 m ρ c, Kept.at2_v1 m ρ c, Kept.at2_v3 m ρ c, Kept.at2_v11 m ρ c,
    Stretch0.src m ρ c, Stretch0.tgt m ρ c, Stretch0.recip m ρ c, layer1 m ρ c,
    Kept.at3_arg6 m ρ c, Kept.at3_arg7 m ρ c, Kept.at3_arg8 m ρ c, Sage.meanMul_rows, Sage.meanMul_eq_meanDiv]

/-- The third region leaves the third layer in its output array. -/
theorem layer3 (c : Dev nD) : W6 m ρ c (Proc.devRef .tc main_v53) = h3 m c := by
  refine (W6_arr m ρ c 5).trans ((Conv2.final (V5 m ρ) c).trans ?_)
  unfold Conv2.out h3 Sage.conv
  show Sage.lin (W5 m ρ c (Proc.devRef .tc main_v52)) (W5 m ρ c (Proc.devRef .tc main_v39)) (W5 m ρ c (Proc.devRef .tc main_arg9)) (W5 m ρ c (Proc.devRef .tc main_arg10)) (W5 m ρ c (Proc.devRef .tc main_arg11)) = _
  rw [Stretch2.means m ρ c, Kept.at5_v39 m ρ c, Kept.at4_v1 m ρ c, Kept.at4_v3 m ρ c, Kept.at4_v11 m ρ c,
    Stretch0.src m ρ c, Stretch0.tgt m ρ c, Stretch0.recip m ρ c, layer2 m ρ c,
    Kept.at5_arg9 m ρ c, Kept.at5_arg10 m ρ c, Kept.at5_arg11 m ρ c, Sage.meanMul_rows, Sage.meanMul_eq_meanDiv]

/-- The result buffer at the last boundary is the network of the fourteen arguments. -/
theorem result (c : Dev nD) : W8 m ρ c (Proc.devRef .tc main_v66)
    = Sage.model (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (W8_arr m ρ c 3).trans ((Head.final (V7 m ρ) c).trans ?_)
  unfold Head.out
  show Sage.head (W7 m ρ c (Proc.devRef .tc main_v65)) (W7 m ρ c (Proc.devRef .tc main_arg12)) (W7 m ρ c (Proc.devRef .tc main_arg13)) = _
  rw [Stretch3.pooled m ρ c, Kept.at6_arg2 m ρ c, layer3 m ρ c, Kept.at7_arg12 m ρ c, Kept.at7_arg13 m ρ c]
  rfl

end Cert.KernelIdeal.Through

end
-- ==== Proof.RefModel.lean ====
/-
  The reference program's result is the network of Spec.lean applied to its arguments.  The reference's stages spell
  the same neighbour sum, clamped degree, quotient, two products, bias and clamp once per convolution; each stage is the
  vocabulary's function of the previous convolution's output, by unfolding the stage definitions.
-/
import proofs.«117925_j70317204570424_1_alg».proof.Proof.Spec

set_option maxRecDepth 16384

noncomputable section

namespace Cert.Sage

open Cert.ReferenceIdeal Cert.ReferenceIdeal.Gen Cert.ReferenceIdeal.Read Idealize.ShloMosaic

variable (x : Nodes) (ei : Edges) (batch : Batch) (W1l : Square) (b1 : Row) (W1r : Square) (W2l : Square) (b2 : Row)
  (W2r : Square) (W3l : Square) (b3 : Row) (W3r : Square) (Wout : OutW) (bout : OutB)

/-- After the first convolution and its clamp. -/
theorem ref_layer1 : val_main_v29 (F := Ideal) x ei W1l b1 W1r = relu (conv ei x W1l b1 W1r) := rfl

/-- After the second convolution and its clamp. -/
theorem ref_layer2 : val_main_v55 (F := Ideal) x ei W1l b1 W1r W2l b2 W2r
    = relu (conv ei (val_main_v29 (F := Ideal) x ei W1l b1 W1r) W2l b2 W2r) := rfl

/-- After the third convolution. -/
theorem ref_layer3 : val_main_v80 (F := Ideal) x ei W1l b1 W1r W2l b2 W2r W3l b3 W3r
    = conv ei (val_main_v55 (F := Ideal) x ei W1l b1 W1r W2l b2 W2r) W3l b3 W3r := rfl

/-- The pooling and the last product. -/
theorem ref_head : val_main_v96 (F := Ideal) x ei batch W1l b1 W1r W2l b2 W2r W3l b3 W3r Wout bout
    = head (pool batch (val_main_v80 (F := Ideal) x ei W1l b1 W1r W2l b2 W2r W3l b3 W3r)) Wout bout := rfl

/-- The reference's result is the network. -/
theorem ref_model : val_main_v96 (F := Ideal) x ei batch W1l b1 W1r W2l b2 W2r W3l b3 W3r Wout bout
    = model x ei batch W1l b1 W1r W2l b2 W2r W3l b3 W3r Wout bout := by
  rw [ref_head, ref_layer3, ref_layer2, ref_layer1]
  rfl

end Cert.Sage

end
-- ==== Proof.lean ====
/-
  A three-layer graph convolution network with mean pooling and a last linear layer, as a kernel program and as a plain
  reference, are the same function of their fourteen arguments on the extended reals.

  The kernel program keeps the irregular part (gathering the sources' feature rows, adding them into the targets, the
  in-degree, the per-graph sums) as host operations and runs the dense part of each convolution,
  means · Wl + b + features · Wr, as a kernel over 20 blocks of 5000 node rows, and the last product as a one-block kernel.
  The reference computes each dense part as two whole products.  They differ in three ways, none of which is seen at the
  extended reals: the kernels round their operands to a shorter format first (a change of format is the identity); a
  block of rows of a product is the product of the block of rows; and the kernel program multiplies the neighbour sums by
  one over the clamped degree where the reference divides by the clamped degree — the clamped degree is at least one,
  hence not zero, and off zero the quotient IS the product with the inverse.  The gathers and scatters are the same
  operations on the same operands in both programs and are never opened.  Nothing needs the inputs finite.

  The three frames: the two kernel programs' are the generated ones; the reference's is its generated run with the result
  dropped.  No rewrite was applied in idealizing the kernel, so that claim is trivial.  The value claim: the kernel
  program's run names its result as the last boundary's contents (KernelRun), which is the network of the arguments
  (Through); the reference's run names its result as its composed term, which is the same network (RefModel).
-/
import proofs.«117925_j70317204570424_1_alg».proof.Defs
import proofs.«117925_j70317204570424_1_alg».proof.Proof.Gen.Kernel
import proofs.«117925_j70317204570424_1_alg».proof.Proof.Gen.Kernel.Skeleton
import proofs.«117925_j70317204570424_1_alg».proof.Proof.Gen.Kernel.Launch
import proofs.«117925_j70317204570424_1_alg».proof.Proof.Gen.Kernel.Points
import proofs.«117925_j70317204570424_1_alg».proof.Proof.Gen.Kernel.Frame
import proofs.«117925_j70317204570424_1_alg».proof.Proof.Gen.KernelIdeal
import proofs.«117925_j70317204570424_1_alg».proof.Proof.Gen.KernelIdeal.Skeleton
import proofs.«117925_j70317204570424_1_alg».proof.Proof.Gen.KernelIdeal.Launch
import proofs.«117925_j70317204570424_1_alg».proof.Proof.Gen.KernelIdeal.Points
import proofs.«117925_j70317204570424_1_alg».proof.Proof.Gen.KernelIdeal.Frame
import proofs.«117925_j70317204570424_1_alg».proof.Proof.Gen.ReferenceIdeal
import proofs.«117925_j70317204570424_1_alg».proof.Proof.Gen.Pre_finite_inputs
import proofs.«117925_j70317204570424_1_alg».proof.Proof.Gen.ReferenceIdeal.Run
import proofs.«117925_j70317204570424_1_alg».proof.Proof.Gen.ReferenceIdeal.Read
import proofs.«117925_j70317204570424_1_alg».proof.Proof.KernelRun
import proofs.«117925_j70317204570424_1_alg».proof.Proof.Through
import proofs.«117925_j70317204570424_1_alg».proof.Proof.RefModel
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the network of the (agreeing) arguments in their result buffers. -/
theorem algebraic : Cert.algebraic_KernelIdeal_ReferenceIdeal := by
  intro m ρ m' ρ' _ hagree
  refine ⟨fun c => Cert.KernelIdeal.Gen.W8 m ρ c (Proc.devRef .tc Cert.KernelIdeal.main_v66),
    Cert.KernelIdeal.ValueRun.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12, e13⟩ := hagree c
  rw [Cert.ReferenceIdeal.Read.val_main_v96_eq, Cert.Sage.ref_model, e0, e1, e2, e3, e4, e5, e6, e7, e8, e9, e10, e11, e12, e13]
  exact (Cert.KernelIdeal.Through.result m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
